-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000 : Shape := ⟨1, ![10000]⟩
abbrev S256x1 : Shape := ⟨2, ![256, 1]⟩
abbrev S1 : Shape := ⟨1, ![1]⟩
abbrev S256x128 : Shape := ⟨2, ![256, 128]⟩
abbrev S128 : Shape := ⟨1, ![128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x1 : Shape := ⟨2, ![1, 1]⟩
abbrev S10000x1 : Shape := ⟨2, ![10000, 1]⟩

class Facts : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S10000x1 : S_.BroadcastsInDim S10000x1 (![] : Fin 0 → Fin S10000x1.rank)
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S640000x1 : S_.BroadcastsInDim S640000x1 (![] : Fin 0 → Fin S640000x1.rank)
  reducesTo_S640000x1_S_d0_1 : S640000x1.ReducesTo [0, 1] S_
  gather_S10000x128_S640000x1_S640000x128_1_0_n_n_0_1_1128_wf : GatherDims.WF S10000x128 S640000x1 S640000x128 [1] [0] [] [0] [] 1 ![1, 128]
  gather_S10000_S640000x1_S640000_n_0_n_n_0_1_1_wf : GatherDims.WF S10000 S640000x1 S640000 [] [0] [] [0] [] 1 ![1]
  dot_S640000x256_S256x1_S640000x1_1_0_0_1_n_n_wf : DotDims.WF S640000x256 S256x1 S640000x1 [1] [0] [0] [1] [] []
  scatter_S10000x1_S640000x1_S640000x1_1_0_0_1_wf : ScatterDims.WF S10000x1 S640000x1 S640000x1 [1] [0] [0] 1
  gather_S10000x1_S640000x1_S640000x1_1_0_n_n_0_1_11_wf : GatherDims.WF S10000x1 S640000x1 S640000x1 [1] [0] [] [0] [] 1 ![1, 1]

variable [Facts]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf
def scatter_S10000x1_S640000x1_S640000x1_1_0_0_1 : ScatterDims S10000x1 S640000x1 S640000x1 where
  updateWindowDims := [1]
  insertedWindowDims := [0]
  scatterDimsToOperandDims := [0]
  indexVectorDim := 1
  wf := scatter_S10000x1_S640000x1_S640000x1_1_0_0_1_wf
def gather_S10000x1_S640000x1_S640000x1_1_0_n_n_0_1_11 : GatherDims S10000x1 S640000x1 S640000x1 where
  offsetDims := [1]
  collapsedSliceDims := [0]
  operandBatchingDims := []
  startIndicesBatchingDims := []
  startIndexMap := [0]
  indexVectorDim := 1
  sliceSizes := ![1, 1]
  wf := gather_S10000x1_S640000x1_S640000x1_1_0_n_n_0_1_11_wf
def fn_part4 {F : FTy → Type} [FloatOps F] (main_v64 : IVec S_ 1) (main_v73 : IVec S640000x1 1) : IVec S_ 1 :=
  let main_c_20 : IVec S_ 1 := constantI S_ 1 1#1
  let main_v74 : IVec S_ 1 := (fun x v => Host.reduce IntOp.andi x v reducesTo_S640000x1_S_d0_1 h_S_) main_v73 main_c_20
  let main_v75 : IVec S_ 1 := andi main_v64 main_v74
  main_v75

def fn_part3 {F : FTy → Type} [FloatOps F] (main_arg5 : FVec F S128 .f32) (main_v1 : IVec S640000 32) (main_v35 : FVec F S10000x1 .f32) (main_v54 : IVec S_ 1) (main_v55 : FVec F S256x128 .f32) (main_cst_13 : FVec F S_ .f32) : IVec S_ 1 :=
  let main_v56 : FVec F S256x128 .f32 := broadcastInDim S256x128 ![] bcast_S_S256x128 main_cst_13
  let main_v57 : IVec S256x128 1 := cmpf .olt main_v55 main_v56
  let main_c_14 : IVec S_ 1 := constantI S_ 1 1#1
  let main_v58 : IVec S_ 1 := (fun x v => Host.reduce IntOp.andi x v reducesTo_S256x128_S_d0_1 h_S_) main_v57 main_c_14
  let main_v59 : IVec S_ 1 := andi main_v54 main_v58
  let main_v60 : FVec F S128 .f32 := Host.absf main_arg5
  let main_cst_15 : FVec F S_ .f32 := constant S_ .f32 0x7F800000#32
  let main_v61 : FVec F S128 .f32 := broadcastInDim S128 ![] bcast_S_S128 main_cst_15
  let main_v62 : IVec S128 1 := cmpf .olt main_v60 main_v61
  let main_c_16 : IVec S_ 1 := constantI S_ 1 1#1
  let main_v63 : IVec S_ 1 := (fun x v => Host.reduce IntOp.andi x v reducesTo_S128_S_d0 h_S_) main_v62 main_c_16
  let main_v64 : IVec S_ 1 := andi main_v59 main_v63
  let main_c_17 : IVec S_ 32 := constantI S_ 32 0#32
  let main_v65 : IVec S640000 32 := broadcastInDim S640000 ![] bcast_S_S640000 main_c_17
  let main_v66 : IVec S640000 1 := cmpi .slt main_v1 main_v65
  let main_c_18 : IVec S_ 32 := constantI S_ 32 10000#32
  let main_v67 : IVec S640000 32 := broadcastInDim S640000 ![] bcast_S_S640000 main_c_18
  let main_v68 : IVec S640000 32 := addi main_v1 main_v67
  let main_v69 : IVec S640000 32 := select main_v66 main_v68 main_v1
  let main_v70 : IVec S640000x1 32 := broadcastInDim S640000x1 ![0] bcast_S640000_S640000x1_0 main_v69
  let main_v71 : FVec F S640000x1 .f32 := (fun x i => Host.gather gather_S10000x1_S640000x1_S640000x1_1_0_n_n_0_1_11 x i) main_v35 main_v70
  let main_cst_19 : FVec F S_ .f32 := constant S_ .f32 0x00000000#32
  let main_v72 : FVec F S640000x1 .f32 := broadcastInDim S640000x1 ![] bcast_S_S640000x1 main_cst_19
  let main_v73 : IVec S640000x1 1 := cmpf .une main_v71 main_v72
  fn_part4 (F := F) main_v64 main_v73

def fn_part2 {F : FTy → Type} [FloatOps F] (main_arg1 : FVec F S10000 .f32) (main_arg2 : FVec F S256x1 .f32) (main_arg3 : FVec F S1 .f32) (main_arg4 : FVec F S256x128 .f32) (main_arg5 : FVec F S128 .f32) (main_v1 : IVec S640000 32) (main_v35 : FVec F S10000x1 .f32) (main_v38 : IVec S10000x128 1) (main_c_6 : IVec S_ 1) : IVec S_ 1 :=
  let main_v39 : IVec S_ 1 := (fun x v => Host.reduce IntOp.andi x v reducesTo_S10000x128_S_d0_1 h_S_) main_v38 main_c_6
  let main_v40 : FVec F S10000 .f32 := Host.absf main_arg1
  let main_cst_7 : FVec F S_ .f32 := constant S_ .f32 0x7F800000#32
  let main_v41 : FVec F S10000 .f32 := broadcastInDim S10000 ![] bcast_S_S10000 main_cst_7
  let main_v42 : IVec S10000 1 := cmpf .olt main_v40 main_v41
  let main_c_8 : IVec S_ 1 := constantI S_ 1 1#1
  let main_v43 : IVec S_ 1 := (fun x v => Host.reduce IntOp.andi x v reducesTo_S10000_S_d0 h_S_) main_v42 main_c_8
  let main_v44 : IVec S_ 1 := andi main_v39 main_v43
  let main_v45 : FVec F S256x1 .f32 := Host.absf main_arg2
  let main_cst_9 : FVec F S_ .f32 := constant S_ .f32 0x7F800000#32
  let main_v46 : FVec F S256x1 .f32 := broadcastInDim S256x1 ![] bcast_S_S256x1 main_cst_9
  let main_v47 : IVec S256x1 1 := cmpf .olt main_v45 main_v46
  let main_c_10 : IVec S_ 1 := constantI S_ 1 1#1
  let main_v48 : IVec S_ 1 := (fun x v => Host.reduce IntOp.andi x v reducesTo_S256x1_S_d0_1 h_S_) main_v47 main_c_10
  let main_v49 : IVec S_ 1 := andi main_v44 main_v48
  let main_v50 : FVec F S1 .f32 := Host.absf main_arg3
  let main_cst_11 : FVec F S_ .f32 := constant S_ .f32 0x7F800000#32
  let main_v51 : FVec F S1 .f32 := broadcastInDim S1 ![] bcast_S_S1 main_cst_11
  let main_v52 : IVec S1 1 := cmpf .olt main_v50 main_v51
  let main_c_12 : IVec S_ 1 := constantI S_ 1 1#1
  let main_v53 : IVec S_ 1 := (fun x v => Host.reduce IntOp.andi x v reducesTo_S1_S_d0 h_S_) main_v52 main_c_12
  let main_v54 : IVec S_ 1 := andi main_v49 main_v53
  let main_v55 : FVec F S256x128 .f32 := Host.absf main_arg4
  let main_cst_13 : FVec F S_ .f32 := constant S_ .f32 0x7F800000#32
  fn_part3 (F := F) main_arg5 main_v1 main_v35 main_v54 main_v55 main_cst_13

def fn_part1 {F : FTy → Type} [FloatOps F] (main_arg0 : FVec F S10000x128 .f32) (main_arg1 : FVec F S10000 .f32) (main_arg2 : FVec F S256x1 .f32) (main_arg3 : FVec F S1 .f32) (main_arg4 : FVec F S256x128 .f32) (main_arg5 : FVec F S128 .f32) (main_v1 : IVec S640000 32) (main_v3 : IVec S640000 32) (main_v18 : FVec F S640000x256 .f32) (main_c_3 : IVec S_ 32) : IVec S_ 1 :=
  let main_v19 : IVec S640000 32 := broadcastInDim S640000 ![] bcast_S_S640000 main_c_3
  let main_v20 : IVec S640000 1 := cmpi .slt main_v3 main_v19
  let main_c_4 : IVec S_ 32 := constantI S_ 32 10000#32
  let main_v21 : IVec S640000 32 := broadcastInDim S640000 ![] bcast_S_S640000 main_c_4
  let main_v22 : IVec S640000 32 := addi main_v3 main_v21
  let main_v23 : IVec S640000 32 := select main_v20 main_v22 main_v3
  let main_v24 : IVec S640000x1 32 := broadcastInDim S640000x1 ![0] bcast_S640000_S640000x1_0 main_v23
  let main_v25 : FVec F S640000 .f32 := (fun x i => Host.gather gather_S10000_S640000x1_S640000_n_0_n_n_0_1_1 x i) main_arg1 main_v24
  let main_v26 : FVec F S640000x1 .f32 := broadcastInDim S640000x1 ![0] bcast_S640000_S640000x1_0 main_v25
  let main_v27 : FVec F S640000x1 .f32 := (fun l r => Host.dotGeneral dot_S640000x256_S256x1_S640000x1_1_0_0_1_n_n none l r) main_v18 main_arg2
  let main_v28 : FVec F S1x1 .f32 := broadcastInDim S1x1 ![1] bcast_S1_S1x1_1 main_arg3
  let main_v29 : FVec F S640000x1 .f32 := broadcastInDim S640000x1 ![0, 1] bcast_S1x1_S640000x1_0_1 main_v28
  let main_v30 : FVec F S640000x1 .f32 := addf main_v27 main_v29
  let main_v31 : FVec F S640000x1 .f32 := Host.exp main_v30
  let main_v32 : FVec F S640000x1 .f32 := mulf main_v26 main_v31
  let main_cst : FVec F S_ .f32 := constant S_ .f32 0x00000000#32
  let main_v33 : FVec F S10000x1 .f32 := broadcastInDim S10000x1 ![] bcast_S_S10000x1 main_cst
  let main_v34 : IVec S640000x1 32 := broadcastInDim S640000x1 ![0] bcast_S640000_S640000x1_0 main_v1
  let main_v35 : FVec F S10000x1 .f32 := (fun x i u => Host.scatterAdd scatter_S10000x1_S640000x1_S640000x1_1_0_0_1 x i u) main_v33 main_v34 main_v32
  let main_v36 : FVec F S10000x128 .f32 := Host.absf main_arg0
  let main_cst_5 : FVec F S_ .f32 := constant S_ .f32 0x7F800000#32
  let main_v37 : FVec F S10000x128 .f32 := broadcastInDim S10000x128 ![] bcast_S_S10000x128 main_cst_5
  let main_v38 : IVec S10000x128 1 := cmpf .olt main_v36 main_v37
  let main_c_6 : IVec S_ 1 := constantI S_ 1 1#1
  fn_part2 (F := F) main_arg1 main_arg2 main_arg3 main_arg4 main_arg5 main_v1 main_v35 main_v38 main_c_6

def fn {F : FTy → Type} [FloatOps F] (main_arg0 : FVec F S10000x128 .f32) (main_arg1 : FVec F S10000 .f32) (main_arg2 : FVec F S256x1 .f32) (main_arg3 : FVec F S1 .f32) (main_arg4 : FVec F S256x128 .f32) (main_arg5 : FVec F S128 .f32) (main_arg6 : IVec S2x640000 32) : IVec S_ 1 :=
  let main_v0 : IVec S1x640000 32 := (extractStridedSlice S1x640000 ![0, 0] · slices_S2x640000_S1x640000_0_0) main_arg6
  let main_v1 : IVec S640000 32 := shapeCast S640000 main_v0 shapeCasts_S1x640000_S640000
  let main_v2 : IVec S1x640000 32 := (extractStridedSlice S1x640000 ![1, 0] · slices_S2x640000_S1x640000_1_0) main_arg6
  let main_v3 : IVec S640000 32 := shapeCast S640000 main_v2 shapeCasts_S1x640000_S640000
  let main_c : IVec S_ 32 := constantI S_ 32 0#32
  let main_v4 : IVec S640000 32 := broadcastInDim S640000 ![] bcast_S_S640000 main_c
  let main_v5 : IVec S640000 1 := cmpi .slt main_v1 main_v4
  let main_c_0 : IVec S_ 32 := constantI S_ 32 10000#32
  let main_v6 : IVec S640000 32 := broadcastInDim S640000 ![] bcast_S_S640000 main_c_0
  let main_v7 : IVec S640000 32 := addi main_v1 main_v6
  let main_v8 : IVec S640000 32 := select main_v5 main_v7 main_v1
  let main_v9 : IVec S640000x1 32 := broadcastInDim S640000x1 ![0] bcast_S640000_S640000x1_0 main_v8
  let main_v10 : FVec F S640000x128 .f32 := (fun x i => Host.gather gather_S10000x128_S640000x1_S640000x128_1_0_n_n_0_1_1128 x i) main_arg0 main_v9
  let main_c_1 : IVec S_ 32 := constantI S_ 32 0#32
  let main_v11 : IVec S640000 32 := broadcastInDim S640000 ![] bcast_S_S640000 main_c_1
  let main_v12 : IVec S640000 1 := cmpi .slt main_v3 main_v11
  let main_c_2 : IVec S_ 32 := constantI S_ 32 10000#32
  let main_v13 : IVec S640000 32 := broadcastInDim S640000 ![] bcast_S_S640000 main_c_2
  let main_v14 : IVec S640000 32 := addi main_v3 main_v13
  let main_v15 : IVec S640000 32 := select main_v12 main_v14 main_v3
  let main_v16 : IVec S640000x1 32 := broadcastInDim S640000x1 ![0] bcast_S640000_S640000x1_0 main_v15
  let main_v17 : FVec F S640000x128 .f32 := (fun x i => Host.gather gather_S10000x128_S640000x1_S640000x128_1_0_n_n_0_1_1128 x i) main_arg0 main_v16
  let main_v18 : FVec F S640000x256 .f32 := (fun a b => concatenate S640000x256 1 [⟨S640000x128, a⟩, ⟨S640000x128, b⟩] concatenates_S640000x128_S640000x128_S640000x256_d1) main_v10 main_v17
  let main_c_3 : IVec S_ 32 := constantI S_ 32 0#32
  fn_part1 (F := F) main_arg0 main_arg1 main_arg2 main_arg3 main_arg4 main_arg5 main_v1 main_v3 main_v18 main_c_3
-- ==== Kernel.lean ====
abbrev S10000x128 : Shape := ⟨2, ![10000, 128]⟩
abbrev S10000 : Shape := ⟨1, ![10000]⟩
abbrev S256x1 : Shape := ⟨2, ![256, 1]⟩
abbrev S1 : Shape := ⟨1, ![1]⟩
abbrev S256x128 : Shape := ⟨2, ![256, 128]⟩
abbrev S128 : Shape := ⟨1, ![128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x1 : Shape := ⟨2, ![128, 1]⟩
abbrev S1x128 : Shape := ⟨2, ![1, 128]⟩
abbrev S1x1 : Shape := ⟨2, ![1, 1]⟩
abbrev S128x128 : Shape := ⟨2, ![128, 128]⟩
abbrev S4000x128 : Shape := ⟨2, ![4000, 128]⟩
abbrev S4000x1 : Shape := ⟨2, ![4000, 1]⟩
abbrev S4000 : Shape := ⟨1, ![4000]⟩
abbrev S10000x1 : Shape := ⟨2, ![10000, 1]⟩

abbrev nBuf : Space → Nat
  | .hbm => 72
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S256x1, .f32⟩
  | .hbm, ⟨3, _⟩ => ⟨S1, .f32⟩
  | .hbm, ⟨4, _⟩ => ⟨S256x128, .f32⟩
  | .hbm, ⟨5, _⟩ => ⟨S128, .f32⟩
  | .hbm, ⟨6, _⟩ => ⟨S2x640000, .i32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000, .f32⟩
  | .hbm, ⟨38, _⟩ => ⟨S640000x1, .f32⟩
  | .hbm, ⟨39, _⟩ => ⟨S128x1, .f32⟩
  | .hbm, ⟨40, _⟩ => ⟨S1x128, .f32⟩
  | .hbm, ⟨41, _⟩ => ⟨S128x1, .f32⟩
  | .hbm, ⟨42, _⟩ => ⟨S1x128, .f32⟩
  | .hbm, ⟨43, _⟩ => ⟨S1x1, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S640000x1, .f32⟩
  | .hbm, ⟨48, _⟩ => ⟨S640000x128, .f32⟩
  | .hbm, ⟨49, _⟩ => ⟨S_, .f32⟩
  | .hbm, ⟨50, _⟩ => ⟨S10000x1, .f32⟩
  | .hbm, ⟨51, _⟩ => ⟨S640000x1, .i32⟩
  | .hbm, ⟨52, _⟩ => ⟨S10000x1, .f32⟩
  | .hbm, ⟨53, _⟩ => ⟨S_, .f32⟩
  | .hbm, ⟨54, _⟩ => ⟨S10000x1, .f32⟩
  | .hbm, ⟨55, _⟩ => ⟨S10000x1, .i1⟩
  | .hbm, ⟨56, _⟩ => ⟨S_, .f32⟩
  | .hbm, ⟨57, _⟩ => ⟨S10000x1, .f32⟩
  | .hbm, ⟨58, _⟩ => ⟨S10000x1, .f32⟩
  | .hbm, ⟨59, _⟩ => ⟨S_, .f32⟩
  | .hbm, ⟨60, _⟩ => ⟨S10000x1, .f32⟩
  | .hbm, ⟨61, _⟩ => ⟨S10000x1, .f32⟩
  | .hbm, ⟨62, _⟩ => ⟨S_, .f32⟩
  | .hbm, ⟨63, _⟩ => ⟨S_, .f32⟩
  | .hbm, ⟨64, _⟩ => ⟨S10000x1, .f32⟩
  | .hbm, ⟨65, _⟩ => ⟨S10000x1, .f32⟩
  | .hbm, ⟨66, _⟩ => ⟨S_, .f32⟩
  | .hbm, ⟨67, _⟩ => ⟨S10000x128, .f32⟩
  | .hbm, ⟨68, _⟩ => ⟨S640000x1, .i32⟩
  | .hbm, ⟨69, _⟩ => ⟨S10000x128, .f32⟩
  | .hbm, ⟨70, _⟩ => ⟨S10000x128, .f32⟩
  | .hbm, ⟨71, _⟩ => ⟨S10000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S4000x1, .f32⟩
  | .local _ .vmem, ⟨13, _⟩ => ⟨S4000x1, .f32⟩
  | .local _ .vmem, ⟨14, _⟩ => ⟨S4000x128, .f32⟩
  | .local _ .vmem, ⟨15, _⟩ => ⟨S4000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  slices_S256x1_S128x1_0_0 : S256x1.Slices ![0, 0] S128x1
  shapeCasts_S128x1_S1x128 : S128x1.ShapeCasts S1x128
  slices_S256x1_S128x1_128_0 : S256x1.Slices ![128, 0] S128x1
  shapeCasts_S1_S1x1 : S1.ShapeCasts S1x1
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S4000x1_S4000x128 : S4000x1.Broadcasts S4000x128
  bcast_S_S10000x1 : S_.BroadcastsInDim S10000x1 (![] : Fin 0 → Fin S10000x1.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  gather_S10000_S640000x1_S640000_n_0_n_n_0_1_1_wf : GatherDims.WF S10000 S640000x1 S640000 [] [0] [] [0] [] 1 ![1]
  dot_S4000x128_S128x128_S4000x128_1_0_0_1_n_n_wf : DotDims.WF S4000x128 S128x128 S4000x128 [1] [0] [0] [1] [] []
  scatter_S10000x1_S640000x1_S640000x1_1_0_0_1_wf : ScatterDims.WF S10000x1 S640000x1 S640000x1 [1] [0] [0] 1
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S640000x1.size a
  hwx0_2 : ∀ i : grid0.Coords, EltTy.bits .f32 = 32 ∨ (Rect.block (s := S640000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S640000x1.size a
  hwx0_9 : ∀ i : grid0.Coords, EltTy.bits .f32 = 32 ∨ (Rect.block (s := S640000x1) S4000x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S640000x128.size a
  hwx0_10 : ∀ i : grid0.Coords, EltTy.bits .f32 = 32 ∨ (Rect.block (s := S640000x128) S4000x128.size (cc0_transform_10 i) (hinb0_10 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S10000x1_S640000x1_S640000x1_1_0_0_1 : ScatterDims S10000x1 S640000x1 S640000x1 where
  updateWindowDims := [1]
  insertedWindowDims := [0]
  scatterDimsToOperandDims := [0]
  indexVectorDim := 1
  wf := scatter_S10000x1_S640000x1_S640000x1_1_0_0_1_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34_0) S4000x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v34_1) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000 : Shape := ⟨1, ![10000]⟩
abbrev S256x1 : Shape := ⟨2, ![256, 1]⟩
abbrev S1 : Shape := ⟨1, ![1]⟩
abbrev S256x128 : Shape := ⟨2, ![256, 128]⟩
abbrev S128 : Shape := ⟨1, ![128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x1 : Shape := ⟨2, ![1, 1]⟩
abbrev S10000x1 : Shape := ⟨2, ![10000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S256x1, .f32⟩
  | .hbm, ⟨3, _⟩ => ⟨S1, .f32⟩
  | .hbm, ⟨4, _⟩ => ⟨S256x128, .f32⟩
  | .hbm, ⟨5, _⟩ => ⟨S128, .f32⟩
  | .hbm, ⟨6, _⟩ => ⟨S2x640000, .i32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x256, .f32⟩
  | .hbm, ⟨30, _⟩ => ⟨S640000x1, .f32⟩
  | .hbm, ⟨31, _⟩ => ⟨S1x1, .f32⟩
  | .hbm, ⟨32, _⟩ => ⟨S640000x1, .f32⟩
  | .hbm, ⟨33, _⟩ => ⟨S640000x1, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000, .f32⟩
  | .hbm, ⟨43, _⟩ => ⟨S640000x1, .f32⟩
  | .hbm, ⟨44, _⟩ => ⟨S640000x1, .f32⟩
  | .hbm, ⟨45, _⟩ => ⟨S640000x1, .f32⟩
  | .hbm, ⟨46, _⟩ => ⟨S_, .f32⟩
  | .hbm, ⟨47, _⟩ => ⟨S10000x1, .f32⟩
  | .hbm, ⟨48, _⟩ => ⟨S640000x1, .i32⟩
  | .hbm, ⟨49, _⟩ => ⟨S10000x1, .f32⟩
  | .hbm, ⟨50, _⟩ => ⟨S_, .f32⟩
  | .hbm, ⟨51, _⟩ => ⟨S10000x1, .f32⟩
  | .hbm, ⟨52, _⟩ => ⟨S10000x1, .f32⟩
  | .hbm, ⟨53, _⟩ => ⟨S_, .f32⟩
  | .hbm, ⟨54, _⟩ => ⟨S10000x1, .f32⟩
  | .hbm, ⟨55, _⟩ => ⟨S10000x1, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x1, .f32⟩
  | .hbm, ⟨65, _⟩ => ⟨S640000x1, .f32⟩
  | .hbm, ⟨66, _⟩ => ⟨S640000x128, .f32⟩
  | .hbm, ⟨67, _⟩ => ⟨S1x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S10000x128, .f32⟩
  | .hbm, ⟨74, _⟩ => ⟨S640000x1, .i32⟩
  | .hbm, ⟨75, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S10000x1 : S_.BroadcastsInDim S10000x1 (![] : Fin 0 → Fin S10000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S640000x256_S256x1_S640000x1_1_0_0_1_n_n_wf : DotDims.WF S640000x256 S256x1 S640000x1 [1] [0] [0] [1] [] []
  gather_S10000_S640000x1_S640000_n_0_n_n_0_1_1_wf : GatherDims.WF S10000 S640000x1 S640000 [] [0] [] [0] [] 1 ![1]
  scatter_S10000x1_S640000x1_S640000x1_1_0_0_1_wf : ScatterDims.WF S10000x1 S640000x1 S640000x1 [1] [0] [0] 1
  gather_S10000x1_S640000x1_S640000x1_1_0_n_n_0_1_11_wf : GatherDims.WF S10000x1 S640000x1 S640000x1 [1] [0] [] [0] [] 1 ![1, 1]
  dot_S640000x256_S256x128_S640000x128_1_0_0_1_n_n_wf : DotDims.WF S640000x256 S256x128 S640000x128 [1] [0] [0] [1] [] []
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x1_S640000x1_S640000x1_1_0_0_1 : ScatterDims S10000x1 S640000x1 S640000x1 where
  updateWindowDims := [1]
  insertedWindowDims := [0]
  scatterDimsToOperandDims := [0]
  indexVectorDim := 1
  wf := scatter_S10000x1_S640000x1_S640000x1_1_0_0_1_wf
def gather_S10000x1_S640000x1_S640000x1_1_0_n_n_0_1_11 : GatherDims S10000x1 S640000x1 S640000x1 where
  offsetDims := [1]
  collapsedSliceDims := [0]
  operandBatchingDims := []
  startIndicesBatchingDims := []
  startIndexMap := [0]
  indexVectorDim := 1
  sliceSizes := ![1, 1]
  wf := gather_S10000x1_S640000x1_S640000x1_1_0_n_n_0_1_11_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.IndexLaws.lean ====
/-
  Two index facts about the row gather and the row scatter that both programs use.

  A scatter of per-edge rows `upd[e, :]` into per-node rows at the node indices `idx[e, 0]`: update element
  `(e, d)` lands on `(n, d)` exactly when the signed index `idx[e, 0]` is `n` and lies inside the node axis;
  otherwise it is dropped. Only the forward direction is needed here: if `(e, d)` lands on `i` then the signed
  index of edge `e` IS `i`'s node.
  A gather of a one-column per-node array at per-edge indices reads, for edge `e`, the node
  `idx[e, 0]` read signed and clamped into the node axis.
-/
import Idealize.ShloMosaic.PureOps.Ideal
import Idealize.ShloMosaic.Lib.ValueIdx

noncomputable section

namespace Cert.IndexLaws

open Idealize.ShloMosaic Idealize.ShloMosaic.ValueIdx

/-- The dimension numbers of a scatter of `[E, C]` rows into `[N, C]` at `[E, 1]` row indices. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The start of update element `j`'s window on the node axis is its edge's signed index. -/
theorem rowScatter_start0 {N E C w : Nat} (wf) (idx : IVec ⟨2, ![E, 1]⟩ w) (j : (⟨2, ![E, C]⟩ : Shape).Idx) :
    (rowScatter N E C wf).start j idx 0 = (idx (ix2 (j 0) (0 : Fin 1))).toInt := by
  unfold ScatterDims.start
  rw [dif_pos (show (0 : Fin 2) ∈ (rowScatter N E C wf).scatterDimsToOperandDims from List.mem_singleton.mpr rfl)]
  congr 2
  funext b; refine Fin.ext ?_
  match b with
  | ⟨0, _⟩ => rfl
  | ⟨1, _⟩ => rfl

/-- The node axis carries no window coordinate: it is the inserted axis. -/
theorem rowScatter_window0 {N E C : Nat} (wf) (j : (⟨2, ![E, C]⟩ : Shape).Idx) :
    (rowScatter N E C wf).window j 0 = 0 := by
  unfold ScatterDims.window
  rw [dif_neg]
  intro h
  have h2 := (List.mem_filter.mp h).2
  simp at h2

/-- If update element `j` lands on operand element `i`, the signed index of `j`'s edge is `i`'s node. -/
theorem rowScatter_lands {N E C w : Nat} (wf) (idx : IVec ⟨2, ![E, 1]⟩ w) (j : (⟨2, ![E, C]⟩ : Shape).Idx)
    (i : (⟨2, ![N, C]⟩ : Shape).Idx) (h : (rowScatter N E C wf).resultIdx? j idx = some i) :
    (idx (ix2 (j 0) (0 : Fin 1))).toInt = ((i 0).val : Int) := by
  unfold ScatterDims.resultIdx? at h
  split at h
  · rename_i hall
    have hi := Option.some.inj h
    have h0 := hall 0
    rw [rowScatter_start0, rowScatter_window0] at h0
    have : (i 0).val = ((rowScatter N E C wf).start j idx 0 + ((rowScatter N E C wf).window j 0 : Nat)).toNat := by
      rw [← hi]
    rw [rowScatter_start0, rowScatter_window0] at this
    omega
  · exact absurd h (by simp)

/-- The dimension numbers of a gather of rows of a one-column `[N, 1]` array at `[E, 1]` row indices. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- The gather read at edge `e`: the operand at the edge's index, read signed and clamped into `[0, N − 1]`. -/
theorem colGather_apply {α : Type} {N E w : Nat} (hN : 0 < N) (wf) (x : (⟨2, ![N, 1]⟩ : Shape).Idx → α)
    (idx : IVec ⟨2, ![E, 1]⟩ w) (e : Fin E) :
    Host.gather (colGather N E wf) x idx (ix2 e (0 : Fin 1))
      = x (ix2 ⟨min (idx (ix2 e (0 : Fin 1))).toInt.toNat (N - 1), by omega⟩ (0 : Fin 1)) := by
  unfold Host.gather
  congr 1
  funext a
  match a with
  | ⟨1, h1⟩ =>
    refine Fin.ext ?_
    have hlt : ((colGather N E wf).operandIdx (ix2 e (0 : Fin 1)) idx ⟨1, h1⟩).val < 1 :=
      ((colGather N E wf).operandIdx (ix2 e (0 : Fin 1)) idx ⟨1, h1⟩).isLt
    show _ = 0
    omega
  | ⟨0, _⟩ =>
    refine Fin.ext ?_
    show (colGather N E wf).start (ix2 e 0) idx 0 + (colGather N E wf).batchCoord (ix2 e 0) 0
      + (colGather N E wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx (ix2 e (0 : Fin 1)) ⟨List.idxOf (0 : Fin 2) (colGather N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.IndexLaws

end
-- ==== Proof.KerForm.lean ====
/-
  The kernel's result as the host lines after the region compute it, over the two arrays the region leaves.

  After the region, `A₉` holds the gate column and `A₁₀` the gate-times-message rows. The host lines scatter-add both
  at the raw target-node words `I` (node totals `ρ` and unnormalised rows), form `1/ρ + ε`, replace it by `0` where
  `ρ = 0`, and scale each node's row by it. Read at an index `(n, d)` this is
      (∑_{(e,d) → (n,d)} A₁₀ (e, d)) · (if ρ n = 0 then 0 else 1/ρ n + ε).
-/
import proofs.«129259_j53274774340079_2_alg».proof.Proof.Gen.KernelIdeal.Frame
import proofs.«129259_j53274774340079_2_alg».proof.Proof.IndexLaws
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KerForm

open Idealize.ShloMosaic Idealize.ShloMosaic.TcCoe Idealize.SL.Sem Idealize.ShloMosaic.StableHlo
open Idealize.ShloMosaic.ValueIdx
open Cert.KernelIdeal Cert.KernelIdeal.Gen Cert.IndexLaws

/-- A select on "equal" is the `if`. -/
theorem select_oeq (x y a b : EReal) : Scalar.select (Ideal.cmp .oeq x y) a b = if x = y then a else b := by
  unfold Ideal.cmp
  by_cases h : x = y
  · rw [if_pos h]; simp only [h, decide_true]; exact select_one a b
  · rw [if_neg h]; simp only [h, decide_false]; exact select_zero a b

/-- The host's select over the node column, read at a node: the buffers' contents are arrays of the stated types, so
    the transports along their types are identities. -/
theorem sel_at (cnd : IVec S10000x1 1) (a b : S10000x1.Idx → EReal) (n : S10000x1.Idx) :
    (TRef.of (sig := sig) (T := ⟨S10000x1, .f32⟩) main_v44).toBuf (Val := Elt Ideal)
      (select ((TRef.of (sig := sig) (T := ⟨S10000x1, .i1⟩) main_v39).ofBuf (Val := Elt Ideal) cnd) a b) n
      = Scalar.select (cnd n) (a n) (b n) := rfl

/-- The replacement value of the select, read at a node: the zero constant, passed through the call's buffers. -/
theorem then_at (n : S10000x1.Idx) :
    (TRef.of (sig := sig) (T := ⟨S10000x1, .f32⟩) main_call0_v1).ofBuf (Val := Elt Ideal)
      ((TRef.of (sig := sig) (T := ⟨S10000x1, .f32⟩) main_call0_v1).toBuf (Val := Elt Ideal)
        (broadcastInDim S10000x1 ![] bcast_S_S10000x1
          ((TRef.of (sig := sig) (T := ⟨S_, .f32⟩) main_call0_v0).ofBuf (Val := Elt Ideal)
            ((TRef.of (sig := sig) (T := ⟨S_, .f32⟩) main_call0_v0).toBuf (Val := Elt Ideal)
              (id ((TRef.of (sig := sig) (T := ⟨S_, .f32⟩) main_cst_8).ofBuf (Val := Elt Ideal)
                (constant (F := Ideal) S_ .f32 0#32))))))) n
      = Ideal.ofBits .f32 0#32 := rfl

/-- The kept value of the select, read at a node: the reciprocal of the node's total plus the small constant. -/
theorem else_at (RS : S10000x1.Idx → EReal) (n : S10000x1.Idx) :
    (TRef.of (sig := sig) (T := ⟨S10000x1, .f32⟩) main_v43).ofBuf (Val := Elt Ideal)
      (addf (F := Ideal) (s := S10000x1) (φ := .f32) (Host.divf (F := Ideal) (s := S10000x1) (φ := .f32) (fun _ => (1 : EReal)) RS)
        (broadcastInDim S10000x1 ![] bcast_S_S10000x1 (constant (F := Ideal) S_ .f32 619091349#32))) n
      = Ideal.div 1 (RS n) + Ideal.ofBits .f32 619091349#32 := rfl

/-- The host's accumulating scatter into the node column is the exact sum, at the scatter's dimension numbers. -/
theorem scat1_eq (x : S10000x1.Idx → EReal) (I : IVec S640000x1 32) (u : S640000x1.Idx → EReal) :
    Host.scatterAdd (F := Ideal) (φ := .f32) scatter_S10000x1_S640000x1_S640000x1_1_0_0_1 x I u
      = Ideal.hostScatterAdd (rowScatter 10000 640000 1 Facts₀.scatter_S10000x1_S640000x1_S640000x1_1_0_0_1_wf) x I u := rfl

/-- The same for the scatter into the node rows. -/
theorem scat128_eq (x : S10000x128.Idx → EReal) (I : IVec S640000x1 32) (u : S640000x128.Idx → EReal) :
    Host.scatterAdd (F := Ideal) (φ := .f32) scatter_S10000x128_S640000x1_S640000x128_1_0_0_1 x I u
      = Ideal.hostScatterAdd (rowScatter 10000 640000 128 Facts₀.scatter_S10000x128_S640000x1_S640000x128_1_0_0_1_wf) x I u := rfl

/-- The raw target-node words as the lines after the region read them: a column over the edges. -/
abbrev rowWords (m : (ℓ : Loc nD τ sig) → Buf (Elt Ideal) ℓ) (c : Dev nD) : IVec S640000x1 32 :=
  broadcastInDim S640000x1 ![0] bcast_S640000_S640000x1_0 (V0 m c (Proc.devRef .tc main_v1))

/-- The select and the scaling, over an arbitrary column of totals `RS` and arbitrary summed rows `OUT`. -/
theorem scale_at (OUT : S10000x128.Idx → EReal) (RS : S10000x1.Idx → EReal) (i : S10000x128.Idx) :
    mulf (F := Ideal) (s := S10000x128) (φ := .f32) OUT (broadcastInDim S10000x128 ![0, 1] bcast_S10000x1_S10000x128_0_1
        ((TRef.of (sig := sig) (T := ⟨S10000x1, .f32⟩) main_v44).toBuf (Val := Elt Ideal)
          (select ((TRef.of (sig := sig) (T := ⟨S10000x1, .i1⟩) main_v39).ofBuf (Val := Elt Ideal)
              (cmpf (F := Ideal) (s := S10000x1) (φ := .f32) .oeq RS (fun _ => (0 : EReal))))
            ((TRef.of (sig := sig) (T := ⟨S10000x1, .f32⟩) main_call0_v1).ofBuf (Val := Elt Ideal)
              ((TRef.of (sig := sig) (T := ⟨S10000x1, .f32⟩) main_call0_v1).toBuf (Val := Elt Ideal)
                (broadcastInDim S10000x1 ![] bcast_S_S10000x1
                  ((TRef.of (sig := sig) (T := ⟨S_, .f32⟩) main_call0_v0).ofBuf (Val := Elt Ideal)
                    ((TRef.of (sig := sig) (T := ⟨S_, .f32⟩) main_call0_v0).toBuf (Val := Elt Ideal)
                      (id ((TRef.of (sig := sig) (T := ⟨S_, .f32⟩) main_cst_8).ofBuf (Val := Elt Ideal)
                        (constant (F := Ideal) S_ .f32 0#32))))))))
            ((TRef.of (sig := sig) (T := ⟨S10000x1, .f32⟩) main_v43).ofBuf (Val := Elt Ideal)
              (addf (F := Ideal) (s := S10000x1) (φ := .f32) (Host.divf (F := Ideal) (s := S10000x1) (φ := .f32) (fun _ => (1 : EReal)) RS)
                (broadcastInDim S10000x1 ![] bcast_S_S10000x1 (constant (F := Ideal) S_ .f32 619091349#32))))))) i
      = OUT i * (if RS (ix2 (i 0) (0 : Fin 1)) = 0 then 0
          else Ideal.div 1 (RS (ix2 (i 0) (0 : Fin 1))) + Ideal.ofBits .f32 619091349#32) := by
  rw [mulf_apply]
  rw [broadcastInDim_apply _ bcast_S10000x1_S10000x128_0_1 _ i (ix2 (i 0) (0 : Fin 1)) (fun a => match a with
    | ⟨0, _⟩ => by show (i 0).val = if (10000 : Nat) = 1 then 0 else (i 0).val; rw [if_neg (by decide)]
    | ⟨1, _⟩ => by show (0 : Nat) = if (1 : Nat) = 1 then 0 else (i 1).val; rw [if_pos rfl])]
  refine congrArg₂ (· * ·) rfl ?_
  refine (sel_at _ _ _ _).trans ?_
  rw [cmpf_apply, Ideal.cmpf_def, select_oeq, then_at, else_at, Ideal.ofBits_zero_f32]

set_option maxHeartbeats 4000000 in
theorem ker_form (m : (ℓ : Loc nD τ sig) → Buf (Elt Ideal) ℓ) (c : Dev nD) (i : S10000x128.Idx) :
    Pipeline.afterTail₀ cfgs (dats (F := Ideal) m) 0 (V0 m) [hostOps1, hostOps1_1, hostOps1_2] c main_v49 i
      = Ideal.hostScatterAdd (rowScatter 10000 640000 128 Facts₀.scatter_S10000x128_S640000x1_S640000x128_1_0_0_1_wf)
            (fun _ => 0) (rowWords m c) ((dats (F := Ideal) m 0 c).arrAt 10 cfg0.N) i
        * (if Ideal.hostScatterAdd (rowScatter 10000 640000 1 Facts₀.scatter_S10000x1_S640000x1_S640000x1_1_0_0_1_wf)
              (fun _ => 0) (rowWords m c) ((dats (F := Ideal) m 0 c).arrAt 9 cfg0.N) (ix2 (i 0) (0 : Fin 1)) = 0 then 0
            else Ideal.div 1 (Ideal.hostScatterAdd (rowScatter 10000 640000 1 Facts₀.scatter_S10000x1_S640000x1_S640000x1_1_0_0_1_wf)
              (fun _ => 0) (rowWords m c) ((dats (F := Ideal) m 0 c).arrAt 9 cfg0.N) (ix2 (i 0) (0 : Fin 1)))
              + Ideal.ofBits .f32 619091349#32) := by
  have e9 : Pipeline.withArrays (cfgs 0).spec c (V0 m c) (fun w => (dats (F := Ideal) m 0 c).arrAt w (cfgs 0).N)
      (Proc.devRef .tc main_v34_0) = (dats (F := Ideal) m 0 c).arrAt 9 cfg0.N :=
    Pipeline.withArrays_arr spec0 launch0.win.arr_inj c _ _ 9
  have e10 : Pipeline.withArrays (cfgs 0).spec c (V0 m c) (fun w => (dats (F := Ideal) m 0 c).arrAt w (cfgs 0).N)
      (Proc.devRef .tc main_v34_1) = (dats (F := Ideal) m 0 c).arrAt 10 cfg0.N :=
    Pipeline.withArrays_arr spec0 launch0.win.arr_inj c _ _ 10
  have e1 : Pipeline.withArrays (cfgs 0).spec c (V0 m c) (fun w => (dats (F := Ideal) m 0 c).arrAt w (cfgs 0).N)
      (Proc.devRef .tc main_v1) = V0 m c (Proc.devRef .tc main_v1) :=
    Pipeline.withArrays_of_ne _ c (V0 m c) _ main_v1 (by decide)
  -- the three broadcast constants
  have hz128 : (broadcastInDim S10000x128 ![] bcast_S_S10000x128 (constant (F := Ideal) S_ .f32 0#32)
      : S10000x128.Idx → EReal) = fun _ => 0 := by
    funext _; exact Ideal.ofBits_zero_f32
  have hz1 : (broadcastInDim S10000x1 ![] bcast_S_S10000x1 (constant (F := Ideal) S_ .f32 0#32)
      : S10000x1.Idx → EReal) = fun _ => 0 := by
    funext _; exact Ideal.ofBits_zero_f32
  have hone : (broadcastInDim S10000x1 ![] bcast_S_S10000x1 (constant (F := Ideal) S_ .f32 1065353216#32)
      : S10000x1.Idx → EReal) = fun _ => 1 := by
    funext _
    show Ideal.ofBits .f32 0x3F800000#32 = 1
    simp [Ideal.ofBits, Ideal.ieee, -EReal.coe_mul]; norm_num
  rw [← scat128_eq, ← scat1_eq]
  unfold Pipeline.afterTail₀
  simp only [hostOps1, hostOps1_1, hostOps1_2, List.flatten_cons, List.flatten_nil, List.append_nil, List.cons_append, List.nil_append]
  after_results_simp
  rw [e9, e10, e1, hz128, hz1, hone]
  exact scale_at _ _ i

end Cert.KerForm

end
-- ==== Proof.EdgeSpec.lean ====
/-
  The two per-edge quantities both programs compute, as functions of the gathered rows, index by index, on
  the extended reals.

  For an edge `e` with gathered endpoint rows `xr e`, `xc e` (each of 128 features), a per-edge weight `w e`,
  the gate weights `Wg` (256 rows: the first 128 meet `xr`, the last 128 meet `xc`) and the bias `bg`:
      gate e   = w e · exp (∑ₖ xr e k · Wg k + ∑ₖ xc e k · Wg (128 + k) + bg).
  With the message weights `Wm` (256 × 128) and the bias `bm`:
      msg e d  = ∑ₖ xr e k · Wm k d + ∑ₖ xc e k · Wm (128 + k) d + bm d.
  A product over the concatenated row `[xr e, xc e]` splits into these two half sums, which is how one
  program spells it and not the other.
-/
import Idealize.ShloMosaic.PureOps.Ideal
import Idealize.ShloMosaic.Lib.ValueIdx

noncomputable section

open scoped BigOperators

namespace Cert.EdgeSpec

open Idealize.ShloMosaic Idealize.ShloMosaic.ValueIdx

/-- Row `128 + k` of a 256-row array: the second half. -/
abbrev hi (k : Fin 128) : Fin 256 := ⟨128 + k.val, by omega⟩
/-- Row `k` of a 256-row array: the first half. -/
abbrev lo (k : Fin 128) : Fin 256 := ⟨k.val, by omega⟩

/-- The gate logit of edge `e`: the two half dot products with the gate weights, plus the bias. -/
def logit (xr xc : (⟨2, ![640000, 128]⟩ : Shape).Idx → EReal) (Wg : (⟨2, ![256, 1]⟩ : Shape).Idx → EReal)
    (bg : (⟨1, ![1]⟩ : Shape).Idx → EReal) (e : Fin 640000) : EReal :=
  (∑ k : Fin 128, xr (ix2 e k) * Wg (ix2 (lo k) (0 : Fin 1)))
    + (∑ k : Fin 128, xc (ix2 e k) * Wg (ix2 (hi k) (0 : Fin 1))) + bg (ix1 (0 : Fin 1))

/-- The unnormalised gate weight of every edge, as a column. -/
def gate (xr xc : (⟨2, ![640000, 128]⟩ : Shape).Idx → EReal) (w : (⟨2, ![640000, 1]⟩ : Shape).Idx → EReal)
    (Wg : (⟨2, ![256, 1]⟩ : Shape).Idx → EReal) (bg : (⟨1, ![1]⟩ : Shape).Idx → EReal) :
    (⟨2, ![640000, 1]⟩ : Shape).Idx → EReal :=
  fun i => w i * Ideal.exp (logit xr xc Wg bg (i 0))

/-- The message of every edge, feature by feature. -/
def msg (xr xc : (⟨2, ![640000, 128]⟩ : Shape).Idx → EReal) (Wm : (⟨2, ![256, 128]⟩ : Shape).Idx → EReal)
    (bm : (⟨1, ![128]⟩ : Shape).Idx → EReal) : (⟨2, ![640000, 128]⟩ : Shape).Idx → EReal :=
  fun j => (∑ k : Fin 128, xr (ix2 (j 0) k) * Wm (ix2 (lo k) (j 1)))
    + (∑ k : Fin 128, xc (ix2 (j 0) k) * Wm (ix2 (hi k) (j 1))) + bm (ix1 (j 1))

/-- The gate weight spread over the features, times the message: what is summed per target node. -/
def gated (xr xc : (⟨2, ![640000, 128]⟩ : Shape).Idx → EReal) (w : (⟨2, ![640000, 1]⟩ : Shape).Idx → EReal)
    (Wg : (⟨2, ![256, 1]⟩ : Shape).Idx → EReal) (bg : (⟨1, ![1]⟩ : Shape).Idx → EReal)
    (Wm : (⟨2, ![256, 128]⟩ : Shape).Idx → EReal) (bm : (⟨1, ![128]⟩ : Shape).Idx → EReal) :
    (⟨2, ![640000, 128]⟩ : Shape).Idx → EReal :=
  fun j => gate xr xc w Wg bg (ix2 (j 0) (0 : Fin 1)) * msg xr xc Wm bm j

end Cert.EdgeSpec

end
-- ==== Proof.KerBlocks.lean ====
/-
  The kernel's blocks, read as rows of the arrays the kernel is launched on.

  The grid has 160 points. At point `t` the three per-edge inputs (the two gathered rows and the edge weight) and the
  two outputs are cut to edges `4000 t … 4000 t + 3999`: row `r` of such a block is row `4000 t + r` of its array, the
  feature coordinate unchanged. The six small operands (weights and biases) are passed whole at every point: entry
  by entry their block is their array.
-/
import proofs.«129259_j53274774340079_2_alg».proof.Proof.Gen.KernelIdeal.Frame
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.ValueIdx

namespace Cert.KerArrays

open Cert.KernelIdeal Cert.KernelIdeal.Gen

variable (m : (ℓ : Loc nD τ sig) → Buf (Elt Ideal) ℓ)

/-- The grid has 160 points. -/
theorem N_eq : cfg0.N = 160 := N_0

/-- The per-edge windows' block indices at point `t`: block `t` along the edges, block 0 along the features. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The small operands' block indices: block 0 on both axes at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `r` of block `t` of the first gathered array is row `4000 t + r` of the array. -/
theorem xr_block_apply (c : Dev nD) (t : Fin cfg0.N) (r : Fin 4000) (k : Fin 128) (R : Fin 640000)
    (hR : R.val = 4000 * t.val + r.val) :
    (iblk m c 0 t : Vec Ideal S4000x128 .f32) (ix2 r k) = (V m c main_v10 : S640000x128.Idx → EReal) (ix2 R k) := by
  obtain ⟨e0, e1, -⟩ := idx_rows t
  unfold iblk
  rw [View.read_apply]
  show V m c main_v10 _ = V m c main_v10 _
  congr 1
  funext a
  apply Fin.ext
  match a with
  | ⟨0, _⟩ => show win0_0.index t 0 * 4000 + 1 * r.val = R.val; rw [e0, hR]; omega
  | ⟨1, _⟩ => show win0_0.index t 1 * 128 + 1 * k.val = k.val; rw [e1]; omega

/-- Row `r` of block `t` of the second gathered array is row `4000 t + r` of the array. -/
theorem xc_block_apply (c : Dev nD) (t : Fin cfg0.N) (r : Fin 4000) (k : Fin 128) (R : Fin 640000)
    (hR : R.val = 4000 * t.val + r.val) :
    (iblk m c 1 t : Vec Ideal S4000x128 .f32) (ix2 r k) = (V m c main_v17 : S640000x128.Idx → EReal) (ix2 R k) := by
  obtain ⟨-, -, e0, e1, -⟩ := idx_rows t
  unfold iblk
  rw [View.read_apply]
  show V m c main_v17 _ = V m c main_v17 _
  congr 1
  funext a
  apply Fin.ext
  match a with
  | ⟨0, _⟩ => show win0_1.index t 0 * 4000 + 1 * r.val = R.val; rw [e0, hR]; omega
  | ⟨1, _⟩ => show win0_1.index t 1 * 128 + 1 * k.val = k.val; rw [e1]; omega

/-- Entry `r` of block `t` of the edge-weight column is entry `4000 t + r` of the column. -/
theorem w_block_apply (c : Dev nD) (t : Fin cfg0.N) (r : Fin 4000) (R : Fin 640000)
    (hR : R.val = 4000 * t.val + r.val) :
    (iblk m c 2 t : Vec Ideal S4000x1 .f32) (ix2 r (0 : Fin 1)) = (V m c main_v25 : S640000x1.Idx → EReal) (ix2 R (0 : Fin 1)) := by
  obtain ⟨-, -, -, -, e0, e1, -⟩ := idx_rows t
  unfold iblk
  rw [View.read_apply]
  show V m c main_v25 _ = V m c main_v25 _
  congr 1
  funext a
  apply Fin.ext
  match a with
  | ⟨0, _⟩ => show win0_2.index t 0 * 4000 + 1 * r.val = R.val; rw [e0, hR]; omega
  | ⟨1, _⟩ => show win0_2.index t 1 * 1 + 1 * 0 = 0; rw [e1]

/-- The first half of the gate weights is passed whole. -/
theorem gateW_lo_block_apply (c : Dev nD) (t : Fin cfg0.N) (k : Fin 128) :
    (iblk m c 3 t : Vec Ideal S1x128 .f32) (ix2 (0 : Fin 1) k) = (V m c main_v27 : S1x128.Idx → EReal) (ix2 (0 : Fin 1) k) := by
  obtain ⟨e0, e1, -⟩ := idx_whole t
  unfold iblk
  rw [View.read_apply]
  show V m c main_v27 _ = V m c main_v27 _
  congr 1
  funext a
  apply Fin.ext
  match a with
  | ⟨0, _⟩ => show win0_3.index t 0 * 1 + 1 * 0 = 0; rw [e0]
  | ⟨1, _⟩ => show win0_3.index t 1 * 128 + 1 * k.val = k.val; rw [e1]; omega

/-- The second half of the gate weights is passed whole. -/
theorem gateW_hi_block_apply (c : Dev nD) (t : Fin cfg0.N) (k : Fin 128) :
    (iblk m c 4 t : Vec Ideal S1x128 .f32) (ix2 (0 : Fin 1) k) = (V m c main_v29 : S1x128.Idx → EReal) (ix2 (0 : Fin 1) k) := by
  obtain ⟨-, -, e0, e1, -⟩ := idx_whole t
  unfold iblk
  rw [View.read_apply]
  show V m c main_v29 _ = V m c main_v29 _
  congr 1
  funext a
  apply Fin.ext
  match a with
  | ⟨0, _⟩ => show win0_4.index t 0 * 1 + 1 * 0 = 0; rw [e0]
  | ⟨1, _⟩ => show win0_4.index t 1 * 128 + 1 * k.val = k.val; rw [e1]; omega

/-- The gate bias is passed whole. -/
theorem gateB_block_apply (c : Dev nD) (t : Fin cfg0.N) :
    (iblk m c 5 t : Vec Ideal S1x1 .f32) (ix2 (0 : Fin 1) (0 : Fin 1)) = (V m c main_v30 : S1x1.Idx → EReal) (ix2 (0 : Fin 1) (0 : Fin 1)) := by
  obtain ⟨-, -, -, -, e0, e1, -⟩ := idx_whole t
  unfold iblk
  rw [View.read_apply]
  show V m c main_v30 _ = V m c main_v30 _
  congr 1
  funext a
  apply Fin.ext
  match a with
  | ⟨0, _⟩ => show win0_5.index t 0 * 1 + 1 * 0 = 0; rw [e0]
  | ⟨1, _⟩ => show win0_5.index t 1 * 1 + 1 * 0 = 0; rw [e1]

/-- The upper message weights are passed whole. -/
theorem msgW_lo_block_apply (c : Dev nD) (t : Fin cfg0.N) (k d : Fin 128) :
    (iblk m c 6 t : Vec Ideal S128x128 .f32) (ix2 k d) = (V m c main_v31 : S128x128.Idx → EReal) (ix2 k d) := by
  obtain ⟨-, -, -, -, -, -, e0, e1, -⟩ := idx_whole t
  unfold iblk
  rw [View.read_apply]
  show V m c main_v31 _ = V m c main_v31 _
  congr 1
  funext a
  apply Fin.ext
  match a with
  | ⟨0, _⟩ => show win0_6.index t 0 * 128 + 1 * k.val = k.val; rw [e0]; omega
  | ⟨1, _⟩ => show win0_6.index t 1 * 128 + 1 * d.val = d.val; rw [e1]; omega

/-- The lower message weights are passed whole. -/
theorem msgW_hi_block_apply (c : Dev nD) (t : Fin cfg0.N) (k d : Fin 128) :
    (iblk m c 7 t : Vec Ideal S128x128 .f32) (ix2 k d) = (V m c main_v32 : S128x128.Idx → EReal) (ix2 k d) := by
  obtain ⟨-, -, -, -, -, -, -, -, e0, e1, -⟩ := idx_whole t
  unfold iblk
  rw [View.read_apply]
  show V m c main_v32 _ = V m c main_v32 _
  congr 1
  funext a
  apply Fin.ext
  match a with
  | ⟨0, _⟩ => show win0_7.index t 0 * 128 + 1 * k.val = k.val; rw [e0]; omega
  | ⟨1, _⟩ => show win0_7.index t 1 * 128 + 1 * d.val = d.val; rw [e1]; omega

/-- The message bias is passed whole. -/
theorem msgB_block_apply (c : Dev nD) (t : Fin cfg0.N) (d : Fin 128) :
    (iblk m c 8 t : Vec Ideal S1x128 .f32) (ix2 (0 : Fin 1) d) = (V m c main_v33 : S1x128.Idx → EReal) (ix2 (0 : Fin 1) d) := by
  obtain ⟨-, -, -, -, -, -, -, -, -, -, e0, e1⟩ := idx_whole t
  unfold iblk
  rw [View.read_apply]
  show V m c main_v33 _ = V m c main_v33 _
  congr 1
  funext a
  apply Fin.ext
  match a with
  | ⟨0, _⟩ => show win0_8.index t 0 * 1 + 1 * 0 = 0; rw [e0]
  | ⟨1, _⟩ => show win0_8.index t 1 * 128 + 1 * d.val = d.val; rw [e1]; omega

end Cert.KerArrays

end
-- ==== Proof.KerHost.lean ====
/-
  The six small operands of the kernel, read entry by entry as entries of the program's arguments.

  Before the kernel is launched the host cuts the gate weights (256 rows, one column) into their two halves and lays
  each half out as one row of 128 entries, lays the gate bias out as a 1 × 1 array, cuts the message weights
  (256 × 128) into their upper and lower 128 rows, and lays the message bias out as one row. Each of these is a
  slice, a reshape, or a slice followed by a reshape of one argument; read at an entry it is the argument at the
  entry the slice's offset and the row-major order name:
    first half of the gate weights at (0, k)   = gate weights at (k, 0),
    second half at (0, k)                      = gate weights at (128 + k, 0),
    upper message weights at (k, d)            = message weights at (k, d),
    lower message weights at (k, d)            = message weights at (128 + k, d),
    the biases at (0, 0) and (0, d)            = the biases at 0 and d.
-/
import proofs.«129259_j53274774340079_2_alg».proof.Proof.Gen.KernelIdeal.Frame
import proofs.«129259_j53274774340079_2_alg».proof.Proof.EdgeSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem
open Idealize.ShloMosaic.ValueIdx

namespace Cert.KerArrays

open Cert.KernelIdeal Cert.KernelIdeal.Gen Cert.EdgeSpec

variable (m : (ℓ : Loc nD τ sig) → Buf (Elt Ideal) ℓ)

/-- The first half of the gate weights as one row: entry `(0, k)` is row `k` of the weights. -/
theorem gateW_lo_apply (c : Dev nD) (k : Fin 128) :
    (V m c main_v27 : S1x128.Idx → EReal) (ix2 (0 : Fin 1) k)
      = (m ((c.tc : Thread nD τ).loc main_arg2) : S256x1.Idx → EReal) (ix2 (lo k) (0 : Fin 1)) := by
  have e : (V m c main_v27 : S1x128.Idx → EReal)
      = shapeCast S1x128 (extractStridedSlice S128x1 ![0, 0] (m ((c.tc : Thread nD τ).loc main_arg2) : S256x1.Idx → EReal) slices_S256x1_S128x1_0_0) shapeCasts_S128x1_S1x128 := by
    dsimp only [Gen.V, Gen.V0]
    simp only [Gen.hostOps0, List.flatten_cons, List.flatten_nil, List.append_nil]
    after_results
    rfl
  rw [e]
  refine (shapeCast_apply _ shapeCasts_S128x1_S1x128 (ix2 (0 : Fin 1) k) (ix2 k (0 : Fin 1)) ?_).trans ?_
  · rw [Shape.rowMajor_val_two, Shape.rowMajor_val_two]
    show k.val * 1 + 0 = 0 * 128 + k.val
    omega
  · refine extractStridedSlice_apply ![0, 0] _ slices_S256x1_S128x1_0_0 (ix2 k (0 : Fin 1)) (ix2 (lo k) (0 : Fin 1)) fun a => ?_
    match a with
    | ⟨0, _⟩ => show k.val = 0 + k.val; omega
    | ⟨1, _⟩ => show (0 : Nat) = 0 + 0; omega

/-- The second half of the gate weights as one row: entry `(0, k)` is row `128 + k` of the weights. -/
theorem gateW_hi_apply (c : Dev nD) (k : Fin 128) :
    (V m c main_v29 : S1x128.Idx → EReal) (ix2 (0 : Fin 1) k)
      = (m ((c.tc : Thread nD τ).loc main_arg2) : S256x1.Idx → EReal) (ix2 (hi k) (0 : Fin 1)) := by
  have e : (V m c main_v29 : S1x128.Idx → EReal)
      = shapeCast S1x128 (extractStridedSlice S128x1 ![128, 0] (m ((c.tc : Thread nD τ).loc main_arg2) : S256x1.Idx → EReal) slices_S256x1_S128x1_128_0) shapeCasts_S128x1_S1x128 := by
    dsimp only [Gen.V, Gen.V0]
    simp only [Gen.hostOps0, List.flatten_cons, List.flatten_nil, List.append_nil]
    after_results
    rfl
  rw [e]
  refine (shapeCast_apply _ shapeCasts_S128x1_S1x128 (ix2 (0 : Fin 1) k) (ix2 k (0 : Fin 1)) ?_).trans ?_
  · rw [Shape.rowMajor_val_two, Shape.rowMajor_val_two]
    show k.val * 1 + 0 = 0 * 128 + k.val
    omega
  · refine extractStridedSlice_apply ![128, 0] _ slices_S256x1_S128x1_128_0 (ix2 k (0 : Fin 1)) (ix2 (hi k) (0 : Fin 1)) fun a => ?_
    match a with
    | ⟨0, _⟩ => show 128 + k.val = 128 + k.val; rfl
    | ⟨1, _⟩ => show (0 : Nat) = 0 + 0; omega

/-- The gate bias as a 1 × 1 array: its one entry is the bias. -/
theorem gateB_apply (c : Dev nD) :
    (V m c main_v30 : S1x1.Idx → EReal) (ix2 (0 : Fin 1) (0 : Fin 1))
      = (m ((c.tc : Thread nD τ).loc main_arg3) : S1.Idx → EReal) (ix1 (0 : Fin 1)) := by
  have e : (V m c main_v30 : S1x1.Idx → EReal)
      = shapeCast S1x1 (m ((c.tc : Thread nD τ).loc main_arg3) : S1.Idx → EReal) shapeCasts_S1_S1x1 := by
    dsimp only [Gen.V, Gen.V0]
    simp only [Gen.hostOps0, List.flatten_cons, List.flatten_nil, List.append_nil]
    after_results
    rfl
  rw [e]
  refine shapeCast_apply _ shapeCasts_S1_S1x1 (ix2 (0 : Fin 1) (0 : Fin 1)) (ix1 (0 : Fin 1)) ?_
  rw [Shape.rowMajor_val_one, Shape.rowMajor_val_two]
  show (0 : Nat) = 0 * 1 + 0
  omega

/-- The upper 128 rows of the message weights: entry `(k, d)` is entry `(k, d)` of the weights. -/
theorem msgW_lo_apply (c : Dev nD) (k d : Fin 128) :
    (V m c main_v31 : S128x128.Idx → EReal) (ix2 k d)
      = (m ((c.tc : Thread nD τ).loc main_arg4) : S256x128.Idx → EReal) (ix2 (lo k) d) := by
  have e : (V m c main_v31 : S128x128.Idx → EReal)
      = extractStridedSlice S128x128 ![0, 0] (m ((c.tc : Thread nD τ).loc main_arg4) : S256x128.Idx → EReal) slices_S256x128_S128x128_0_0 := by
    dsimp only [Gen.V, Gen.V0]
    simp only [Gen.hostOps0, List.flatten_cons, List.flatten_nil, List.append_nil]
    after_results
  rw [e]
  refine extractStridedSlice_apply ![0, 0] _ slices_S256x128_S128x128_0_0 (ix2 k d) (ix2 (lo k) d) fun a => ?_
  match a with
  | ⟨0, _⟩ => show k.val = 0 + k.val; omega
  | ⟨1, _⟩ => show d.val = 0 + d.val; omega

/-- The lower 128 rows of the message weights: entry `(k, d)` is entry `(128 + k, d)` of the weights. -/
theorem msgW_hi_apply (c : Dev nD) (k d : Fin 128) :
    (V m c main_v32 : S128x128.Idx → EReal) (ix2 k d)
      = (m ((c.tc : Thread nD τ).loc main_arg4) : S256x128.Idx → EReal) (ix2 (hi k) d) := by
  have e : (V m c main_v32 : S128x128.Idx → EReal)
      = extractStridedSlice S128x128 ![128, 0] (m ((c.tc : Thread nD τ).loc main_arg4) : S256x128.Idx → EReal) slices_S256x128_S128x128_128_0 := by
    dsimp only [Gen.V, Gen.V0]
    simp only [Gen.hostOps0, List.flatten_cons, List.flatten_nil, List.append_nil]
    after_results
  rw [e]
  refine extractStridedSlice_apply ![128, 0] _ slices_S256x128_S128x128_128_0 (ix2 k d) (ix2 (hi k) d) fun a => ?_
  match a with
  | ⟨0, _⟩ => show 128 + k.val = 128 + k.val; rfl
  | ⟨1, _⟩ => show d.val = 0 + d.val; omega

/-- The message bias as one row: entry `(0, d)` is entry `d` of the bias. -/
theorem msgB_apply (c : Dev nD) (d : Fin 128) :
    (V m c main_v33 : S1x128.Idx → EReal) (ix2 (0 : Fin 1) d)
      = (m ((c.tc : Thread nD τ).loc main_arg5) : S128.Idx → EReal) (ix1 d) := by
  have e : (V m c main_v33 : S1x128.Idx → EReal)
      = shapeCast S1x128 (m ((c.tc : Thread nD τ).loc main_arg5) : S128.Idx → EReal) shapeCasts_S128_S1x128 := by
    dsimp only [Gen.V, Gen.V0]
    simp only [Gen.hostOps0, List.flatten_cons, List.flatten_nil, List.append_nil]
    after_results
    rfl
  rw [e]
  refine shapeCast_apply _ shapeCasts_S128_S1x128 (ix2 (0 : Fin 1) d) (ix1 d) ?_
  rw [Shape.rowMajor_val_one, Shape.rowMajor_val_two]
  show d.val = 0 * 128 + d.val
  omega

end Cert.KerArrays

end
-- ==== Proof.KerPayload.lean ====
/-
  The kernel body's two stored blocks, read one element at a time on the extended reals.

  For a block of 4000 edges with gathered rows `xr`, `xc` (128 features each), weights `w`, the two halves
  `gr`, `gc` of the gate weights as rows, the gate bias `bg`, the two halves `Mr`, `Mc` of the message weights
  and the message bias `bm`:
      gate r      = w r · exp (∑ₖ xr r k · gr k + ∑ₖ xc r k · gc k + bg),
      gated r d   = gate r · (∑ₖ xr r k · Mr k d + ∑ₖ xc r k · Mc k d + bm d).
  The first is a lane sum of an elementwise product with a broadcast row, kept as a column; the second is two
  matrix products into a zero accumulator (the narrowing to sixteen bits is the identity on extended reals),
  their sum plus the broadcast bias row, times the broadcast gate column.
-/
import proofs.«129259_j53274774340079_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerPayload

open Idealize.ShloMosaic Idealize.ShloMosaic.ValueIdx
open Cert.KernelIdeal

/-! ## Layout operations of the block shapes, read at coordinates -/

/-- A length-4000 vector kept as a column reads, at row `r`, the vector at `r`. -/
theorem colCast_apply {α : Type} (v : S4000.Idx → α) (r : Fin 4000) (u : Fin 1) :
    shapeCast S4000x1 v Gen.shapeCasts_S4000_S4000x1 (ix2 r u) = v (ix1 r) :=
  shapeCast_apply v _ _ _ (by
    have hu : u.val = 0 := by omega
    rw [Shape.rowMajor_val_two, Shape.rowMajor_val_one]
    show r.val = r.val * 1 + u.val
    rw [hu, Nat.mul_one, Nat.add_zero])

/-- One row spread over 4000 rows reads, at `(r, k)`, the row at `k`. -/
theorem rowBcast_apply {α : Type} (v : S1x128.Idx → α) (r : Fin 4000) (k : Fin 128) :
    broadcastTo S4000x128 v Gen.broadcasts_S1x128_S4000x128 (ix2 r k) = v (ix2 (0 : Fin 1) k) :=
  broadcastTo_1b_ab_apply v _ r k

/-- One number spread over a column of 4000 reads that number everywhere. -/
theorem scalarBcast_apply {α : Type} (v : S1x1.Idx → α) (r : Fin 4000) (u : Fin 1) :
    broadcastTo S4000x1 v Gen.broadcasts_S1x1_S4000x1 (ix2 r u) = v (ix2 (0 : Fin 1) u) :=
  broadcastTo_1b_ab_apply v _ r u

/-- A column spread over 128 lanes reads, at `(r, d)`, the column at `r`. -/
theorem colBcast_apply {α : Type} (v : S4000x1.Idx → α) (r : Fin 4000) (d : Fin 128) :
    broadcastTo S4000x128 v Gen.broadcasts_S4000x1_S4000x128 (ix2 r d) = v (ix2 r (0 : Fin 1)) := by
  refine broadcastTo_apply v _ (ix2 r d) (ix2 r (0 : Fin 1)) fun ax => ?_
  match ax with
  | ⟨0, _⟩ => rfl
  | ⟨1, _⟩ => rfl

/-- The exponential of a vector at an index is the exponential of the element. -/
theorem exp_apply {s : Shape} {φ : FTy} (a : FVec Ideal s φ) (i : s.Idx) : exp a i = Ideal.exp (a i) := rfl

/-! ## The lane sum and the matrix product, read at coordinates -/

/-- The sum along the 128 lanes of a `4000 × 128` block, at row `r`. -/
theorem laneSum_apply (src : FVec Ideal S4000x128 .f32) (hφ : FKind.Formats .f32)
    (hacc : (0x00000000#32 : BitVec 32) = 0x00000000#32) (r : Fin 4000) :
    multiReduction (F := Ideal) .add [1] S4000 src 0x00000000#32 Gen.reduces_S4000x128_S4000 hφ hacc (ix1 r)
      = ∑ k : Fin 128, src (ix2 r k) := by
  refine (Ideal.multiReduction_add_single src 0x00000000#32 Gen.reduces_S4000x128_S4000 hφ hacc (ix1 r)).trans ?_
  refine Finset.sum_congr rfl fun k _ => congrArg src ?_
  funext a
  match a with
  | ⟨0, _⟩ => rfl
  | ⟨1, _⟩ => rfl

/-- The left operand's index of the `4000 × 128` by `128 × 128` product keeps the output's row … -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and takes the contraction coordinate as its column; -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand's takes the contraction coordinate as its row … -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and keeps the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The matrix product into a zero accumulator, at `(r, d)`: the sum over the 128 contraction coordinates of the
    products of row `r` of the left operand with column `d` of the right one. -/
theorem matmul_zero_apply {φ₁ φ₂ : FTy} (lhs : FVec Ideal S4000x128 φ₁) (rhs : FVec Ideal S128x128 φ₂) (r : Fin 4000) (d : Fin 128) :
    matmul dot_S4000x128_S128x128_S4000x128_1_0_0_1_n_n none lhs rhs (constant (F := Ideal) S4000x128 .f32 0x00000000#32) (ix2 r d)
      = ∑ k : Fin 128, lhs (ix2 r k) * rhs (ix2 k d) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r d) ((contrEquiv1 dot_S4000x128_S128x128_S4000x128_1_0_0_1_n_n 128 rfl rfl).symm k) = ix2 r k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 r d) ((contrEquiv1 dot_S4000x128_S128x128_S4000x128_1_0_0_1_n_n 128 rfl rfl).symm k) = ix2 k d := funext fun a => Fin.ext (by
    match a with
    | ⟨0, _⟩ => exact (rhs_row _ _).trans hk
    | ⟨1, _⟩ => exact rhs_col _ _)
  rw [el, er]

/-! ## The two payloads at an index -/

/-- The offsets of every rectangle the body loads or stores through are zero. -/
theorem origin_zero : (![0, 0] : Fin 2 → Nat) = fun _ => 0 := funext fun a => by fin_cases a <;> rfl

section
variable (v0 v2 : Vec Ideal S4000x128 .f32) (v21 : Vec Ideal S4000x1 .f32) (v4 v6 : Vec Ideal S1x128 .f32)
  (v17 : Vec Ideal S1x1 .f32) (v28 v31 : Vec Ideal S128x128 .f32) (v37 : Vec Ideal S1x128 .f32) (r : Fin 4000) (d : Fin 128)

/-- The gate column at row `r`. -/
theorem gate_apply :
    Gen.k0_pay4 (F := Ideal) v0 v2 v4 v6 v17 v21 (ix2 r (0 : Fin 1))
      = v21 (ix2 r (0 : Fin 1)) * Ideal.exp ((∑ k : Fin 128, v0 (ix2 r k) * v4 (ix2 (0 : Fin 1) k))
          + (∑ k : Fin 128, v2 (ix2 r k) * v6 (ix2 (0 : Fin 1) k)) + v17 (ix2 (0 : Fin 1) (0 : Fin 1))) := by
  unfold Gen.k0_pay4 Gen.k0_pay2 Gen.k0_pay3
  simp only [shapeCast_self, mulf_apply, addf_apply, exp_apply, colCast_apply, scalarBcast_apply]
  rw [laneSum_apply, laneSum_apply]
  simp only [mulf_apply, rowBcast_apply]

/-- The gate column spread over the lanes times the message, at `(r, d)`, for any gate column `g`. -/
theorem gated_apply (g : FVec Ideal S4000x1 .f32) :
    Gen.k0_pay1 (F := Ideal) g (Gen.k0_pay5 v0 v28) (Gen.k0_pay6 v2 v31) v37 (ix2 r d)
      = g (ix2 r (0 : Fin 1)) * ((∑ k : Fin 128, v0 (ix2 r k) * v28 (ix2 k d))
          + (∑ k : Fin 128, v2 (ix2 r k) * v31 (ix2 k d)) + v37 (ix2 (0 : Fin 1) d)) := by
  unfold Gen.k0_pay1 Gen.k0_pay5 Gen.k0_pay6 Gen.k0_pay2 Gen.k0_pay3
  simp only [shapeCast_self, mulf_apply, addf_apply, colBcast_apply, rowBcast_apply]
  rw [matmul_zero_apply, matmul_zero_apply]
  simp only [truncf_apply]

end

/-! ## The two stored blocks at an index -/

section
variable (x0 x1 : Vec Ideal S4000x128 .f32) (x2 : Vec Ideal S4000x1 .f32) (x3 x4 : Vec Ideal S1x128 .f32)
  (x5 : Vec Ideal S1x1 .f32) (x6 x7 : Vec Ideal S128x128 .f32) (x8 : Vec Ideal S1x128 .f32) (r : Fin 4000) (d : Fin 128)

/-- The gate block the body stores, at row `r`: the weight times the exponential of the two half dot products with the
    gate weights plus the bias. -/
theorem out9_apply :
    Gen.out0_9 (F := Ideal) x0 x1 x2 x3 x4 x5 x6 x7 x8 (ix2 r (0 : Fin 1))
      = x2 (ix2 r (0 : Fin 1)) * Ideal.exp ((∑ k : Fin 128, x0 (ix2 r k) * x3 (ix2 (0 : Fin 1) k))
          + (∑ k : Fin 128, x1 (ix2 r k) * x4 (ix2 (0 : Fin 1) k)) + x5 (ix2 (0 : Fin 1) (0 : Fin 1))) := by
  unfold Gen.out0_9
  rw [View.canon_unit_zero origin_zero]
  simp only [View.ld_unit_zero (S := S4000x128) origin_zero, View.ld_unit_zero (S := S1x128) origin_zero,
    View.ld_unit_zero (S := S1x1) origin_zero, View.ld_unit_zero (S := S4000x1) origin_zero]
  exact gate_apply x0 x1 x2 x3 x4 x5 r

/-- The gated-message block the body stores, at `(r, d)`: that gate times the two half products with the message
    weights plus the bias. -/
theorem out10_apply :
    Gen.out0_10 (F := Ideal) x0 x1 x2 x3 x4 x5 x6 x7 x8 (ix2 r d)
      = (x2 (ix2 r (0 : Fin 1)) * Ideal.exp ((∑ k : Fin 128, x0 (ix2 r k) * x3 (ix2 (0 : Fin 1) k))
          + (∑ k : Fin 128, x1 (ix2 r k) * x4 (ix2 (0 : Fin 1) k)) + x5 (ix2 (0 : Fin 1) (0 : Fin 1))))
        * ((∑ k : Fin 128, x0 (ix2 r k) * x6 (ix2 k d)) + (∑ k : Fin 128, x1 (ix2 r k) * x7 (ix2 k d))
          + x8 (ix2 (0 : Fin 1) d)) := by
  unfold Gen.out0_10
  rw [View.canon_unit_zero origin_zero]
  simp only [View.ld_unit_zero (S := S4000x128) origin_zero, View.ld_unit_zero (S := S1x128) origin_zero,
    View.ld_unit_zero (S := S1x1) origin_zero, View.ld_unit_zero (S := S4000x1) origin_zero,
    View.ld_unit_zero (S := S128x128) origin_zero]
  rw [gated_apply, gate_apply]

end

end Cert.KerPayload

end
-- ==== Proof.KerArrays.lean ====
/-
  The kernel's two output arrays after its 160 grid points, as the per-edge quantities of the whole arrays.

  Point `t` writes rows `4000 t … 4000 t + 3999` of both outputs. Its gate block at row `r` is the edge weight times
  the exponential of the two half dot products with the gate weights plus the bias, all read at edge `4000 t + r`; its
  second block at `(r, d)` is that gate value times the message of edge `4000 t + r` at feature `d`. So each written
  block is the block of ONE function of the whole arrays (the gate column, the gated message), and since edge `R`
  lies in the block of point `R / 4000`, the 160 blocks cover both outputs: after the run the first holds the gate of
  every edge and the second the gated message of every edge and feature.
-/
import proofs.«129259_j53274774340079_2_alg».proof.Proof.Gen.KernelIdeal.Frame
import proofs.«129259_j53274774340079_2_alg».proof.Proof.EdgeSpec
import proofs.«129259_j53274774340079_2_alg».proof.Proof.KerBlocks
import proofs.«129259_j53274774340079_2_alg».proof.Proof.KerHost
import proofs.«129259_j53274774340079_2_alg».proof.Proof.KerPayload
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KerArrays

open Cert.KernelIdeal Cert.KernelIdeal.Gen Cert.EdgeSpec

variable (m : (ℓ : Loc nD τ sig) → Buf (Elt Ideal) ℓ)

/-- The gate of every edge, of the arrays the kernel is launched on. -/
abbrev gateArr (c : Dev nD) : S640000x1.Idx → EReal :=
  gate (V m c main_v10) (V m c main_v17) (V m c main_v25) (m ((c.tc : Thread nD τ).loc main_arg2)) (m ((c.tc : Thread nD τ).loc main_arg3))

/-- The gated message of every edge and feature, of the arrays the kernel is launched on. -/
abbrev gatedArr (c : Dev nD) : S640000x128.Idx → EReal :=
  gated (V m c main_v10) (V m c main_v17) (V m c main_v25) (m ((c.tc : Thread nD τ).loc main_arg2)) (m ((c.tc : Thread nD τ).loc main_arg3))
    (m ((c.tc : Thread nD τ).loc main_arg4)) (m ((c.tc : Thread nD τ).loc main_arg5))

/-- If row `r` of the three per-edge blocks is row `R` of the per-edge arrays and the small blocks are the halves of the
    gate weights and the bias, the gate value computed from the blocks at row `r` is the gate of edge `R`. -/
theorem gate_of_rows (x0 x1 : Vec Ideal S4000x128 .f32) (x2 : Vec Ideal S4000x1 .f32) (x3 x4 : Vec Ideal S1x128 .f32)
    (x5 : Vec Ideal S1x1 .f32) (xr xc : S640000x128.Idx → EReal) (w : S640000x1.Idx → EReal) (Wg : S256x1.Idx → EReal)
    (bg : S1.Idx → EReal) (r : Fin 4000) (R : Fin 640000)
    (h0 : ∀ k : Fin 128, x0 (ix2 r k) = xr (ix2 R k)) (h1 : ∀ k : Fin 128, x1 (ix2 r k) = xc (ix2 R k))
    (h2 : x2 (ix2 r (0 : Fin 1)) = w (ix2 R (0 : Fin 1)))
    (h3 : ∀ k : Fin 128, x3 (ix2 (0 : Fin 1) k) = Wg (ix2 (lo k) (0 : Fin 1)))
    (h4 : ∀ k : Fin 128, x4 (ix2 (0 : Fin 1) k) = Wg (ix2 (hi k) (0 : Fin 1)))
    (h5 : x5 (ix2 (0 : Fin 1) (0 : Fin 1)) = bg (ix1 (0 : Fin 1))) :
    x2 (ix2 r (0 : Fin 1)) * Ideal.exp ((∑ k : Fin 128, x0 (ix2 r k) * x3 (ix2 (0 : Fin 1) k))
        + (∑ k : Fin 128, x1 (ix2 r k) * x4 (ix2 (0 : Fin 1) k)) + x5 (ix2 (0 : Fin 1) (0 : Fin 1)))
      = gate xr xc w Wg bg (ix2 R (0 : Fin 1)) := by
  show _ = w (ix2 R (0 : Fin 1)) * Ideal.exp ((∑ k : Fin 128, xr (ix2 R k) * Wg (ix2 (lo k) (0 : Fin 1)))
    + (∑ k : Fin 128, xc (ix2 R k) * Wg (ix2 (hi k) (0 : Fin 1))) + bg (ix1 (0 : Fin 1)))
  rw [h2, h5, Finset.sum_congr rfl (fun k _ => by rw [h0 k, h3 k] : ∀ k ∈ Finset.univ, x0 (ix2 r k) * x3 (ix2 (0 : Fin 1) k) = xr (ix2 R k) * Wg (ix2 (lo k) (0 : Fin 1))),
    Finset.sum_congr rfl (fun k _ => by rw [h1 k, h4 k] : ∀ k ∈ Finset.univ, x1 (ix2 r k) * x4 (ix2 (0 : Fin 1) k) = xc (ix2 R k) * Wg (ix2 (hi k) (0 : Fin 1)))]

/-- Under the same reading of the per-edge blocks, with the small blocks the halves of the message weights and the
    bias, the message computed from the blocks at `(r, d)` is the message of edge `R` at feature `d`. -/
theorem msg_of_rows (x0 x1 : Vec Ideal S4000x128 .f32) (x6 x7 : Vec Ideal S128x128 .f32) (x8 : Vec Ideal S1x128 .f32)
    (xr xc : S640000x128.Idx → EReal) (Wm : S256x128.Idx → EReal) (bm : S128.Idx → EReal)
    (r : Fin 4000) (d : Fin 128) (R : Fin 640000)
    (h0 : ∀ k : Fin 128, x0 (ix2 r k) = xr (ix2 R k)) (h1 : ∀ k : Fin 128, x1 (ix2 r k) = xc (ix2 R k))
    (h6 : ∀ k : Fin 128, x6 (ix2 k d) = Wm (ix2 (lo k) d)) (h7 : ∀ k : Fin 128, x7 (ix2 k d) = Wm (ix2 (hi k) d))
    (h8 : x8 (ix2 (0 : Fin 1) d) = bm (ix1 d)) :
    (∑ k : Fin 128, x0 (ix2 r k) * x6 (ix2 k d)) + (∑ k : Fin 128, x1 (ix2 r k) * x7 (ix2 k d)) + x8 (ix2 (0 : Fin 1) d)
      = msg xr xc Wm bm (ix2 R d) := by
  show _ = (∑ k : Fin 128, xr (ix2 R k) * Wm (ix2 (lo k) d)) + (∑ k : Fin 128, xc (ix2 R k) * Wm (ix2 (hi k) d)) + bm (ix1 d)
  rw [h8, Finset.sum_congr rfl (fun k _ => by rw [h0 k, h6 k] : ∀ k ∈ Finset.univ, x0 (ix2 r k) * x6 (ix2 k d) = xr (ix2 R k) * Wm (ix2 (lo k) d)),
    Finset.sum_congr rfl (fun k _ => by rw [h1 k, h7 k] : ∀ k ∈ Finset.univ, x1 (ix2 r k) * x7 (ix2 k d) = xc (ix2 R k) * Wm (ix2 (hi k) d))]

/-- Row `r` of point `t`'s block of the gate column sits at row `4000 t + r` of the column. -/
theorem gate_emb (t : Fin cfg0.N) (r : Fin 4000) (R : Fin 640000) (hR : R.val = 4000 * t.val + r.val) :
    ((cfg0.win 9).blk t).view.emb (ix2 r (0 : Fin 1)) = (ix2 R (0 : Fin 1) : S640000x1.Idx) := by
  obtain ⟨-, -, -, -, -, -, e0, e1, -⟩ := idx_rows t
  funext a
  apply Fin.ext
  match a with
  | ⟨0, _⟩ => show win0_9.index t 0 * 4000 + 1 * r.val = R.val; rw [e0, hR]; omega
  | ⟨1, _⟩ => show win0_9.index t 1 * 1 + 1 * 0 = 0; rw [e1]

/-- Entry `(r, d)` of point `t`'s block of the second output sits at `(4000 t + r, d)` of the array. -/
theorem gated_emb (t : Fin cfg0.N) (r : Fin 4000) (d : Fin 128) (R : Fin 640000) (hR : R.val = 4000 * t.val + r.val) :
    ((cfg0.win 10).blk t).view.emb (ix2 r d) = (ix2 R d : S640000x128.Idx) := by
  obtain ⟨-, -, -, -, -, -, -, -, e0, e1⟩ := idx_rows t
  funext a
  apply Fin.ext
  match a with
  | ⟨0, _⟩ => show win0_10.index t 0 * 4000 + 1 * r.val = R.val; rw [e0, hR]; omega
  | ⟨1, _⟩ => show win0_10.index t 1 * 128 + 1 * d.val = d.val; rw [e1]; omega

/-- The edge that row `r` of point `t`'s blocks is: `4000 t + r`, below 640000 since there are 160 points. -/
def edgeOf (t : Fin cfg0.N) (r : Fin 4000) : Fin 640000 :=
  ⟨4000 * t.val + r.val, by have ht := t.isLt; have hN : cfg0.N = 160 := N_eq; have hr := r.isLt; omega⟩

/-- The gate value point `t` computes at its row `r`, from its blocks, is the gate of edge `4000 t + r`. -/
theorem gate_point (c : Dev nD) (t : Fin cfg0.N) (r : Fin 4000) :
    out0_9 (F := Ideal) (iblk m c 0 t) (iblk m c 1 t) (iblk m c 2 t) (iblk m c 3 t) (iblk m c 4 t) (iblk m c 5 t) (iblk m c 6 t) (iblk m c 7 t) (iblk m c 8 t) (ix2 r (0 : Fin 1))
      = gateArr m c (ix2 (edgeOf t r) (0 : Fin 1)) :=
  (Cert.KerPayload.out9_apply (iblk m c 0 t) (iblk m c 1 t) (iblk m c 2 t) (iblk m c 3 t) (iblk m c 4 t) (iblk m c 5 t) (iblk m c 6 t) (iblk m c 7 t) (iblk m c 8 t) r).trans
    (gate_of_rows (iblk m c 0 t) (iblk m c 1 t) (iblk m c 2 t) (iblk m c 3 t) (iblk m c 4 t) (iblk m c 5 t)
      (V m c main_v10) (V m c main_v17) (V m c main_v25) (m ((c.tc : Thread nD τ).loc main_arg2)) (m ((c.tc : Thread nD τ).loc main_arg3))
      r (edgeOf t r)
      (fun k => xr_block_apply m c t r k (edgeOf t r) rfl) (fun k => xc_block_apply m c t r k (edgeOf t r) rfl)
      (w_block_apply m c t r (edgeOf t r) rfl)
      (fun k => (gateW_lo_block_apply m c t k).trans (gateW_lo_apply m c k))
      (fun k => (gateW_hi_block_apply m c t k).trans (gateW_hi_apply m c k))
      ((gateB_block_apply m c t).trans (gateB_apply m c)))

/-- WHAT POINT `t` WRITES BACK to the gate column is block `t` of the gate of every edge. -/
theorem flushed9_eq (c : Dev nD) (t : Fin cfg0.N) :
    (dats m 0 c).flushed 9 t = ((cfg0.win 9).blk t).view.read (Elt Ideal) (gateArr m c) := by
  show (cfg0.win 9).cut (grid0.coords t) ((dats m 0 c).after 9 t) = _
  rw [after0_9]
  funext j
  obtain ⟨r, z, rfl⟩ : ∃ (r : Fin 4000) (z : Fin 1), j = ix2 r z := ⟨j 0, j 1, eq_ix2 j⟩
  obtain rfl : z = 0 := Subsingleton.elim _ _
  show out0_9 (iblk m c 0 t) (iblk m c 1 t) (iblk m c 2 t) (iblk m c 3 t) (iblk m c 4 t) (iblk m c 5 t) (iblk m c 6 t) (iblk m c 7 t) (iblk m c 8 t) (ix2 r (0 : Fin 1))
    = gateArr m c (((cfg0.win 9).blk t).view.emb (ix2 r (0 : Fin 1)))
  rw [gate_emb t r (edgeOf t r) rfl]
  exact gate_point m c t r

/-- An index of the gate column is in point `t`'s block iff each coordinate is in the block's range on its axis. -/
theorem mem_blk9 (t : Fin cfg0.N) (i : S640000x1.Idx) :
    i ∈ ((cfg0.win 9).blk t).view.set ↔ ∀ a : Fin 2, win0_9.index t a * S4000x1.size a ≤ (i a).val ∧ (i a).val < win0_9.index t a * S4000x1.size a + S4000x1.size a := by
  show i ∈ ((View.whole main_v34_0).slice (win0_9.rect t)).set ↔ _
  rw [View.set_slice_whole, Rect.mem_set_unit]
  exact Iff.rfl

/-- Every edge is in some point's block: edge `R` in that of point `R / 4000`. -/
theorem cover9 (i : S640000x1.Idx) : ∃ t : Fin cfg0.N, (cfg0.win 9).flush t = true ∧ i ∈ ((cfg0.win 9).blk t).view.set := by
  have hi0 : (i 0).val < 640000 := (i 0).isLt
  have hi1 : (i 1).val < 1 := (i 1).isLt
  obtain ⟨t, ht⟩ : ∃ t : Fin cfg0.N, t.val = (i 0).val / 4000 := ⟨⟨(i 0).val / 4000, by rw [N_eq]; omega⟩, rfl⟩
  obtain ⟨-, -, -, -, -, -, e0, e1, -⟩ := idx_rows t
  refine ⟨t, flush0_9 t, ?_⟩
  rw [mem_blk9]
  intro a
  match a with
  | ⟨0, _⟩ => show win0_9.index t 0 * 4000 ≤ (i 0).val ∧ (i 0).val < win0_9.index t 0 * 4000 + 4000; rw [e0, ht]; omega
  | ⟨1, _⟩ => show win0_9.index t 1 * 1 ≤ (i 1).val ∧ (i 1).val < win0_9.index t 1 * 1 + 1; rw [e1]; omega

/-- THE GATE COLUMN after the run: the gate of every edge. -/
theorem final9 (c : Dev nD) :
    (dats m 0 c).arrAt 9 cfg0.N = gate (V m c main_v10) (V m c main_v17) (V m c main_v25)
      (m ((c.tc : Thread nD τ).loc main_arg2)) (m ((c.tc : Thread nD τ).loc main_arg3)) :=
  (dats m 0 c).arrAt_eq_of_cover 9 (gateArr m c) (fun t _ => flushed9_eq m c t) cover9

/-- The gated message point `t` computes at `(r, d)`, from its blocks, is that of edge `4000 t + r` at feature `d`. -/
theorem gated_point (c : Dev nD) (t : Fin cfg0.N) (r : Fin 4000) (d : Fin 128) :
    out0_10 (F := Ideal) (iblk m c 0 t) (iblk m c 1 t) (iblk m c 2 t) (iblk m c 3 t) (iblk m c 4 t) (iblk m c 5 t) (iblk m c 6 t) (iblk m c 7 t) (iblk m c 8 t) (ix2 r d)
      = gatedArr m c (ix2 (edgeOf t r) d) := by
  refine (Cert.KerPayload.out10_apply (iblk m c 0 t) (iblk m c 1 t) (iblk m c 2 t) (iblk m c 3 t) (iblk m c 4 t) (iblk m c 5 t) (iblk m c 6 t) (iblk m c 7 t) (iblk m c 8 t) r d).trans ?_
  show _ = gate (V m c main_v10) (V m c main_v17) (V m c main_v25) (m ((c.tc : Thread nD τ).loc main_arg2)) (m ((c.tc : Thread nD τ).loc main_arg3)) (ix2 (edgeOf t r) (0 : Fin 1))
    * msg (V m c main_v10) (V m c main_v17) (m ((c.tc : Thread nD τ).loc main_arg4)) (m ((c.tc : Thread nD τ).loc main_arg5)) (ix2 (edgeOf t r) d)
  exact congrArg₂ (· * ·)
    (gate_of_rows (iblk m c 0 t) (iblk m c 1 t) (iblk m c 2 t) (iblk m c 3 t) (iblk m c 4 t) (iblk m c 5 t)
      (V m c main_v10) (V m c main_v17) (V m c main_v25) (m ((c.tc : Thread nD τ).loc main_arg2)) (m ((c.tc : Thread nD τ).loc main_arg3))
      r (edgeOf t r)
      (fun k => xr_block_apply m c t r k (edgeOf t r) rfl) (fun k => xc_block_apply m c t r k (edgeOf t r) rfl)
      (w_block_apply m c t r (edgeOf t r) rfl)
      (fun k => (gateW_lo_block_apply m c t k).trans (gateW_lo_apply m c k))
      (fun k => (gateW_hi_block_apply m c t k).trans (gateW_hi_apply m c k))
      ((gateB_block_apply m c t).trans (gateB_apply m c)))
    (msg_of_rows (iblk m c 0 t) (iblk m c 1 t) (iblk m c 6 t) (iblk m c 7 t) (iblk m c 8 t)
      (V m c main_v10) (V m c main_v17) (m ((c.tc : Thread nD τ).loc main_arg4)) (m ((c.tc : Thread nD τ).loc main_arg5))
      r d (edgeOf t r)
      (fun k => xr_block_apply m c t r k (edgeOf t r) rfl) (fun k => xc_block_apply m c t r k (edgeOf t r) rfl)
      (fun k => (msgW_lo_block_apply m c t k d).trans (msgW_lo_apply m c k d))
      (fun k => (msgW_hi_block_apply m c t k d).trans (msgW_hi_apply m c k d))
      ((msgB_block_apply m c t d).trans (msgB_apply m c d)))

/-- WHAT POINT `t` WRITES BACK to the second output is block `t` of the gated message of every edge. -/
theorem flushed10_eq (c : Dev nD) (t : Fin cfg0.N) :
    (dats m 0 c).flushed 10 t = ((cfg0.win 10).blk t).view.read (Elt Ideal) (gatedArr m c) := by
  show (cfg0.win 10).cut (grid0.coords t) ((dats m 0 c).after 10 t) = _
  rw [after0_10]
  funext j
  obtain ⟨r, d, rfl⟩ : ∃ (r : Fin 4000) (d : Fin 128), j = ix2 r d := ⟨j 0, j 1, eq_ix2 j⟩
  show out0_10 (iblk m c 0 t) (iblk m c 1 t) (iblk m c 2 t) (iblk m c 3 t) (iblk m c 4 t) (iblk m c 5 t) (iblk m c 6 t) (iblk m c 7 t) (iblk m c 8 t) (ix2 r d)
    = gatedArr m c (((cfg0.win 10).blk t).view.emb (ix2 r d))
  rw [gated_emb t r d (edgeOf t r) rfl]
  exact gated_point m c t r d

/-- An index of the second output is in point `t`'s block iff each coordinate is in the block's range on its axis. -/
theorem mem_blk10 (t : Fin cfg0.N) (i : S640000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v34_1).slice (win0_10.rect t)).set ↔ _
  rw [View.set_slice_whole, Rect.mem_set_unit]
  exact Iff.rfl

/-- Every entry of the second output is in some point's block: row `R` in that of point `R / 4000`. -/
theorem cover10 (i : S640000x128.Idx) : ∃ t : Fin cfg0.N, (cfg0.win 10).flush t = true ∧ i ∈ ((cfg0.win 10).blk t).view.set := by
  have hi0 : (i 0).val < 640000 := (i 0).isLt
  have hi1 : (i 1).val < 128 := (i 1).isLt
  obtain ⟨t, ht⟩ : ∃ t : Fin cfg0.N, t.val = (i 0).val / 4000 := ⟨⟨(i 0).val / 4000, by rw [N_eq]; omega⟩, rfl⟩
  obtain ⟨-, -, -, -, -, -, -, -, e0, e1⟩ := idx_rows t
  refine ⟨t, flush0_10 t, ?_⟩
  rw [mem_blk10]
  intro a
  match a with
  | ⟨0, _⟩ => show win0_10.index t 0 * 4000 ≤ (i 0).val ∧ (i 0).val < win0_10.index t 0 * 4000 + 4000; rw [e0, ht]; omega
  | ⟨1, _⟩ => show win0_10.index t 1 * 128 ≤ (i 1).val ∧ (i 1).val < win0_10.index t 1 * 128 + 128; rw [e1]; omega

/-- THE SECOND OUTPUT after the run: the gated message of every edge and feature. -/
theorem final10 (c : Dev nD) :
    (dats m 0 c).arrAt 10 cfg0.N = gated (V m c main_v10) (V m c main_v17) (V m c main_v25)
      (m ((c.tc : Thread nD τ).loc main_arg2)) (m ((c.tc : Thread nD τ).loc main_arg3))
      (m ((c.tc : Thread nD τ).loc main_arg4)) (m ((c.tc : Thread nD τ).loc main_arg5)) :=
  (dats m 0 c).arrAt_eq_of_cover 10 (gatedArr m c) (fun t _ => flushed10_eq m c t) cover10

/-- info: 'Cert.KerArrays.final9' depends on axioms: [propext, Classical.choice, Quot.sound] -/
#guard_msgs in #print axioms final9
/-- info: 'Cert.KerArrays.final10' depends on axioms: [propext, Classical.choice, Quot.sound] -/
#guard_msgs in #print axioms final10

end Cert.KerArrays

end
-- ==== Proof.KerArgs.lean ====
/-
  The arrays the kernel's program computes on the host before its region are, term for term, the arrays the
  reference computes: the two rows of the edge list, the index normalisation (a negative index has the number of
  nodes added), the two gathers of node features at the row and column indices, and the gather of the per-node
  weight at the column index, repeated along a unit axis.  Both programs apply the same operations to the same
  arguments in the same order of composition, so after the kernel's host operations are read back as one term of the
  launch contents, that term is the reference's.
-/
import proofs.«129259_j53274774340079_2_alg».proof.Proof.Gen.KernelIdeal.Frame
import proofs.«129259_j53274774340079_2_alg».proof.Proof.Gen.ReferenceIdeal.Read
import Idealize.ShloMosaic.Lib.StableHlo.Run

noncomputable section

namespace Cert.KerArgs

open Idealize.ShloMosaic Idealize.ShloMosaic.TcCoe Idealize.SL.Sem Idealize.ShloMosaic.StableHlo
open Cert.KernelIdeal

variable (m : (ℓ : Loc Cert.KernelIdeal.nD Cert.KernelIdeal.τ Cert.KernelIdeal.sig) → Buf (Elt Ideal) ℓ)
  (c : Dev Cert.KernelIdeal.nD)

/-- The features gathered at the row indices. -/
theorem V_xr :
    (Cert.KernelIdeal.Gen.V m c Cert.KernelIdeal.main_v10 : Cert.ReferenceIdeal.S640000x128.Idx → EReal)
      = Cert.ReferenceIdeal.Read.val_main_v10 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg6)) := by
  dsimp only [Gen.V, Gen.V0]
  simp only [Gen.hostOps0, List.flatten_cons, List.flatten_nil, List.append_nil, List.cons_append, List.nil_append]
  after_results_simp
  rfl

/-- The features gathered at the column indices. -/
theorem V_xc :
    (Cert.KernelIdeal.Gen.V m c Cert.KernelIdeal.main_v17 : Cert.ReferenceIdeal.S640000x128.Idx → EReal)
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg6)) := by
  dsimp only [Gen.V, Gen.V0]
  simp only [Gen.hostOps0, List.flatten_cons, List.flatten_nil, List.append_nil, List.cons_append, List.nil_append]
  after_results_simp
  rfl

/-- The per-node weight gathered at the column indices, as a column. -/
theorem V_w :
    (Cert.KernelIdeal.Gen.V m c Cert.KernelIdeal.main_v25 : Cert.ReferenceIdeal.S640000x1.Idx → EReal)
      = Cert.ReferenceIdeal.Read.val_main_v30 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg6)) := by
  dsimp only [Gen.V, Gen.V0]
  simp only [Gen.hostOps0, List.flatten_cons, List.flatten_nil, List.append_nil, List.cons_append, List.nil_append]
  after_results_simp
  rfl

/-- The row indices: the first row of the edge list. -/
theorem V_row :
    (Cert.KernelIdeal.Gen.V0 m c (Proc.devRef .tc Cert.KernelIdeal.main_v1) : Cert.ReferenceIdeal.S640000.Idx → BitVec 32)
      = Cert.ReferenceIdeal.Read.val_main_v1 (F := Ideal)
          (m ((c.tc : Thread Cert.KernelIdeal.nD Cert.KernelIdeal.τ).loc Cert.KernelIdeal.main_arg6)) := by
  dsimp only [Gen.V0]
  simp only [Gen.hostOps0, List.flatten_cons, List.flatten_nil, List.append_nil, List.cons_append, List.nil_append]
  after_results_simp
  rfl

/-- The row indices repeated along a unit axis: the index words both programs scatter by. -/
theorem rowWords_eq :
    (broadcastInDim Cert.KernelIdeal.S640000x1 ![0] Cert.KernelIdeal.Facts₀.bcast_S640000_S640000x1_0
        (Cert.KernelIdeal.Gen.V0 m c (Proc.devRef .tc Cert.KernelIdeal.main_v1)) : IVec Cert.KernelIdeal.S640000x1 32)
      = Cert.ReferenceIdeal.Read.val_main_v34 (F := Ideal)
          (m ((c.tc : Thread Cert.KernelIdeal.nD Cert.KernelIdeal.τ).loc Cert.KernelIdeal.main_arg6)) := by
  dsimp only [Gen.V0]
  simp only [Gen.hostOps0, List.flatten_cons, List.flatten_nil, List.append_nil, List.cons_append, List.nil_append]
  after_results_simp
  rfl

end Cert.KerArgs

end
-- ==== Proof.RefEdge.lean ====
/-
  The reference program's gate column and message array, read index by index, are the per-edge
  quantities of `Cert.EdgeSpec`.

  The reference forms the concatenated row `[xr e, xc e]` (256 entries) and contracts it with a weight
  array of 256 rows.  A sum over the 256 positions is the sum over the first 128 plus the sum over the last
  128; on the first half the concatenated row is `xr e`, on the second half it is `xc e` read 128 places
  earlier.  The bias reaches every edge through two broadcasts that only repeat it.
-/
import proofs.«129259_j53274774340079_2_alg».proof.Proof.Gen.ReferenceIdeal.Read
import proofs.«129259_j53274774340079_2_alg».proof.Proof.EdgeSpec
import Idealize.ShloMosaic.Lib.Pipeline.Value
import Idealize.ShloMosaic.Lib.ValueIdx
import Idealize.ShloMosaic.PureOps.Ideal.Laws

noncomputable section

open scoped BigOperators

namespace Cert.RefEdge

open Cert.ReferenceIdeal Cert.ReferenceIdeal.Gen Idealize.ShloMosaic Idealize.ShloMosaic.ValueIdx Idealize.SL.Sem
open Cert.EdgeSpec (lo hi)

/-- A sum over 256 positions is the sum over the first 128 plus the sum over the last 128. -/
theorem sum_halves (f : Fin 256 → EReal) :
    ∑ k : Fin 256, f k = (∑ k : Fin 128, f (lo k)) + (∑ k : Fin 128, f (hi k)) :=
  Fin.sum_univ_add (a := 128) (b := 128) (fun i : Fin (128 + 128) => f i)

/-- The concatenated row at a position of its first half is the first piece's row. -/
theorem cat_lo {α : Type} (xr xc : S640000x128.Idx → α) (e : Fin 640000) (k : Fin 128) :
    concatenate S640000x256 1 [⟨S640000x128, xr⟩, ⟨S640000x128, xc⟩]
      concatenates_S640000x128_S640000x128_S640000x256_d1 (ix2 e (lo k)) = xr (ix2 e k) :=
  concatenate_pair_apply_left (t := S640000x256) (s₁ := S640000x128) (s₂ := S640000x128) 1 xr xc _ (ix2 e (lo k)) rfl (ix2 e k) (fun b => by
    match b with
    | ⟨0, _⟩ => rfl
    | ⟨1, _⟩ => rfl)

/-- The concatenated row at a position of its second half is the second piece's row, 128 places earlier. -/
theorem cat_hi {α : Type} (xr xc : S640000x128.Idx → α) (e : Fin 640000) (k : Fin 128) :
    concatenate S640000x256 1 [⟨S640000x128, xr⟩, ⟨S640000x128, xc⟩]
      concatenates_S640000x128_S640000x128_S640000x256_d1 (ix2 e (hi k)) = xc (ix2 e k) :=
  concatenate_pair_apply_right (t := S640000x256) (s₁ := S640000x128) (s₂ := S640000x128) 1 xr xc _ (ix2 e (hi k)) rfl rfl (ix2 e k)
    (fun b hb => by
      match b with
      | ⟨0, _⟩ => rfl
      | ⟨1, _⟩ => exact absurd rfl hb)
    (by show k.val + 128 = 128 + k.val; omega)

/-- The gate column of the reference is the gate of the specification: the bias is repeated to every edge, the
    contraction over the concatenated row is the two half sums, and the edge weight multiplies the exponential. -/
theorem ref_gate (x0 : (⟨S10000x128, .f32⟩ : BufTy).Contents (Elt Ideal)) (x1 : (⟨S10000, .f32⟩ : BufTy).Contents (Elt Ideal))
    (x2 : (⟨S256x1, .f32⟩ : BufTy).Contents (Elt Ideal)) (x3 : (⟨S1, .f32⟩ : BufTy).Contents (Elt Ideal))
    (x6 : (⟨S2x640000, .i32⟩ : BufTy).Contents (Elt Ideal)) :
    Read.val_main_v32 (F := Ideal) x0 x1 x2 x3 x6
      = Cert.EdgeSpec.gate (Read.val_main_v10 (F := Ideal) x0 x6) (Read.val_main_v17 (F := Ideal) x0 x6)
          (Read.val_main_v30 (F := Ideal) x1 x6) x2 x3 := by
  funext i
  obtain ⟨e, z, rfl⟩ : ∃ (e : Fin 640000) (z : Fin 1), i = ix2 e z := ⟨i 0, i 1, eq_ix2 i⟩
  obtain rfl : z = 0 := Subsingleton.elim _ _
  have hl : ∀ k : Fin 256, Read.lidx_main_v19 (ix2 e (0 : Fin 1)) k = ix2 e k := fun k =>
    funext fun a => Fin.ext (by match a with | ⟨0, _⟩ => rfl | ⟨1, _⟩ => rfl)
  have hr : ∀ k : Fin 256, Read.ridx_main_v19 (ix2 e (0 : Fin 1)) k = ix2 k (0 : Fin 1) := fun k =>
    funext fun a => Fin.ext (by match a with | ⟨0, _⟩ => rfl | ⟨1, _⟩ => rfl)
  have hb : Read.idx_main_v20 (Read.idx_main_v21 (ix2 e (0 : Fin 1))) = ix1 (0 : Fin 1) :=
    funext fun a => Fin.ext (by match a with | ⟨0, _⟩ => rfl)
  rw [Read.val_main_v32_apply, Read.val_main_v31_apply, Read.val_main_v22_apply, Read.val_main_v21_apply,
    Read.val_main_v20_apply, Read.val_main_v19_apply, sum_halves]
  simp only [hl, hr, hb, Ideal.mulf_def, Ideal.addf_def, Ideal.hostUnary_exp_def]
  unfold Read.val_main_v18
  simp only [cat_lo, cat_hi]
  rfl

/-- The message array of the reference is the message of the specification. -/
theorem ref_msg (x0 : (⟨S10000x128, .f32⟩ : BufTy).Contents (Elt Ideal)) (x4 : (⟨S256x128, .f32⟩ : BufTy).Contents (Elt Ideal))
    (x5 : (⟨S128, .f32⟩ : BufTy).Contents (Elt Ideal)) (x6 : (⟨S2x640000, .i32⟩ : BufTy).Contents (Elt Ideal)) :
    Read.val_main_v51 (F := Ideal) x0 x4 x5 x6
      = Cert.EdgeSpec.msg (Read.val_main_v10 (F := Ideal) x0 x6) (Read.val_main_v17 (F := Ideal) x0 x6) x4 x5 := by
  funext j
  obtain ⟨e, d, rfl⟩ : ∃ (e : Fin 640000) (d : Fin 128), j = ix2 e d := ⟨j 0, j 1, eq_ix2 j⟩
  have hl : ∀ k : Fin 256, Read.lidx_main_v48 (ix2 e d) k = ix2 e k := fun k =>
    funext fun a => Fin.ext (by match a with | ⟨0, _⟩ => rfl | ⟨1, _⟩ => rfl)
  have hr : ∀ k : Fin 256, Read.ridx_main_v48 (ix2 e d) k = ix2 k d := fun k =>
    funext fun a => Fin.ext (by match a with | ⟨0, _⟩ => rfl | ⟨1, _⟩ => rfl)
  have hb : Read.idx_main_v49 (Read.idx_main_v50 (ix2 e d)) = ix1 d :=
    funext fun a => Fin.ext (by match a with | ⟨0, _⟩ => rfl)
  rw [Read.val_main_v51_apply, Read.val_main_v50_apply, Read.val_main_v49_apply, Read.val_main_v48_apply, sum_halves]
  simp only [hl, hr, hb, Ideal.addf_def]
  unfold Read.val_main_v18
  simp only [cat_lo, cat_hi]
  rfl

end Cert.RefEdge

end
-- ==== Proof.Consts.lean ====
/-
  The float constants the reference program spells, as the extended reals their bit patterns denote:
  `1.0` is the real one, and the small positive constant added to the reciprocal is a finite real number.
-/
import Idealize.ShloMosaic.PureOps.Ideal.Laws

noncomputable section

namespace Cert.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern `0x24E69595` has exponent field `73`, neither all zeros nor all ones: a normal number, so a real one. -/
theorem eps_real : ∃ r : ℝ, Ideal.ofBits .f32 0x24E69595#32 = (r : EReal) := by
  show ∃ r : ℝ, Ideal.ieee 8 23 (0x24E69595#32 : BitVec 32) = (r : EReal)
  unfold Ideal.ieee
  simp only []
  rw [if_neg (by decide), if_neg (by decide)]
  exact ⟨_, rfl⟩

end Cert.Consts

end
-- ==== Proof.RefForm.lean ====
/-
  The reference program's whole result as one array expression on the extended reals, and its index normalisation.

  With the gate column `a` and the messages `β` of the specification, the target words `I` and their normalised
  copy `J`: the reference sums the gate per node (a scatter with addition into zeros), takes `1 / sum + ε`, reads
  that back per edge through a gather at `J`, multiplies the gate by it, spreads the product over the 128 features,
  multiplies by the message and sums per node again. The constants it broadcasts are `0`, `1` and `ε`.
  The normalised word is `select (word < 0) (word + 10000) word`: on a word that is not negative it is the word.
-/
import proofs.«129259_j53274774340079_2_alg».proof.Proof.Gen.ReferenceIdeal.Read
import proofs.«129259_j53274774340079_2_alg».proof.Proof.RefEdge
import proofs.«129259_j53274774340079_2_alg».proof.Proof.IndexLaws
import proofs.«129259_j53274774340079_2_alg».proof.Proof.Consts
import Idealize.ShloMosaic.Lib.Affine
import Idealize.ShloMosaic.Lib.ValueIdx
import Idealize.ShloMosaic.PureOps.Ideal.Laws

noncomputable section

open scoped BigOperators

namespace Cert.RefForm

open Cert.ReferenceIdeal Cert.ReferenceIdeal.Gen Idealize.ShloMosaic Idealize.ShloMosaic.ValueIdx Idealize.SL.Sem
open Cert.IndexLaws

/-- The side conditions of the three index operations, at their literal shapes. -/
theorem wf1 : ScatterDims.WF ⟨2, ![10000, 1]⟩ ⟨2, ![640000, 1]⟩ ⟨2, ![640000, 1]⟩ [1] [0] [0] 1 :=
  Gen.scatter_S10000x1_S640000x1_S640000x1_1_0_0_1_wf
theorem wf128 : ScatterDims.WF ⟨2, ![10000, 128]⟩ ⟨2, ![640000, 1]⟩ ⟨2, ![640000, 128]⟩ [1] [0] [0] 1 :=
  Gen.scatter_S10000x128_S640000x1_S640000x128_1_0_0_1_wf
theorem wfg : GatherDims.WF ⟨2, ![10000, 1]⟩ ⟨2, ![640000, 1]⟩ ⟨2, ![640000, 1]⟩ [1] [0] [] [0] [] 1 ![1, 1] :=
  Gen.gather_S10000x1_S640000x1_S640000x1_1_0_n_n_0_1_11_wf

/-! ## The broadcast constants -/

/-- The zero column the gate sums start from. -/
theorem zero_col : Read.val_main_v33 (F := Ideal) = fun _ => (0 : EReal) := by
  funext i
  rw [Read.val_main_v33_apply, Read.val_main_cst_apply, Ideal.ofBits_def, Ideal.ofBits_zero_f32]

/-- The zero block the gated messages are summed into. -/
theorem zero_block : Read.val_main_v54 (F := Ideal) = fun _ => (0 : EReal) := by
  funext i
  rw [Read.val_main_v54_apply, Read.val_main_cst_9_apply, Ideal.ofBits_def, Ideal.ofBits_zero_f32]

/-- The column of ones the reciprocal divides. -/
theorem one_col : Read.val_main_v36 (F := Ideal) = fun _ => (1 : EReal) := by
  funext i
  rw [Read.val_main_v36_apply, Read.val_main_cst_5_apply, Ideal.ofBits_def, Cert.Consts.ofBits_one]

/-- The column of the small constant added to the reciprocal. -/
theorem eps_col : Read.val_main_v38 (F := Ideal) = fun _ => Ideal.ofBits .f32 0x24E69595#32 := by
  funext i
  rw [Read.val_main_v38_apply, Read.val_main_cst_6_apply, Ideal.ofBits_def]

/-! ## The reference's dimension-number records are the literal ones -/

theorem scatter1_rec_eq :
    Cert.ReferenceIdeal.scatter_S10000x1_S640000x1_S640000x1_1_0_0_1 = rowScatter 10000 640000 1 wf1 := rfl
theorem scatter128_rec_eq :
    Cert.ReferenceIdeal.scatter_S10000x128_S640000x1_S640000x128_1_0_0_1 = rowScatter 10000 640000 128 wf128 := rfl
theorem gather_rec_eq :
    Cert.ReferenceIdeal.gather_S10000x1_S640000x1_S640000x1_1_0_n_n_0_1_11 = colGather 10000 640000 wfg := rfl

/-! ## The per-node sums of the gate -/

/-- The reference's first scatter: each node's sum of the gate over the edges that land on it. -/
theorem rowsum_form (x0 : (⟨S10000x128, .f32⟩ : BufTy).Contents (Elt Ideal)) (x1 : (⟨S10000, .f32⟩ : BufTy).Contents (Elt Ideal))
    (x2 : (⟨S256x1, .f32⟩ : BufTy).Contents (Elt Ideal)) (x3 : (⟨S1, .f32⟩ : BufTy).Contents (Elt Ideal))
    (x6 : (⟨S2x640000, .i32⟩ : BufTy).Contents (Elt Ideal)) :
    Read.val_main_v35 (F := Ideal) x0 x1 x2 x3 x6 = (Ideal.hostScatterAdd (rowScatter 10000 640000 1 wf1) (fun _ => 0) (Read.val_main_v34 (F := Ideal) x6)
        (Cert.EdgeSpec.gate (Read.val_main_v10 (F := Ideal) x0 x6) (Read.val_main_v17 (F := Ideal) x0 x6) (Read.val_main_v30 (F := Ideal) x1 x6) x2 x3)) := by
  unfold Read.val_main_v35
  rw [zero_col, Cert.RefEdge.ref_gate]
  rfl

/-! ## The whole result -/

/-- The reference's result: the per-node sum of (gate times the gathered `1 / (per-node gate sum) + ε`) times message. -/
theorem ref_form (x0 : (⟨S10000x128, .f32⟩ : BufTy).Contents (Elt Ideal)) (x1 : (⟨S10000, .f32⟩ : BufTy).Contents (Elt Ideal))
    (x2 : (⟨S256x1, .f32⟩ : BufTy).Contents (Elt Ideal)) (x3 : (⟨S1, .f32⟩ : BufTy).Contents (Elt Ideal))
    (x4 : (⟨S256x128, .f32⟩ : BufTy).Contents (Elt Ideal)) (x5 : (⟨S128, .f32⟩ : BufTy).Contents (Elt Ideal))
    (x6 : (⟨S2x640000, .i32⟩ : BufTy).Contents (Elt Ideal)) :
    Read.val_main_v56 (F := Ideal) x0 x1 x2 x3 x4 x5 x6
      = Ideal.hostScatterAdd (rowScatter 10000 640000 128 wf128) (fun _ => 0) (Read.val_main_v34 (F := Ideal) x6)
          (fun j => ((Cert.EdgeSpec.gate (Read.val_main_v10 (F := Ideal) x0 x6) (Read.val_main_v17 (F := Ideal) x0 x6) (Read.val_main_v30 (F := Ideal) x1 x6) x2 x3) (ix2 (j 0) (0 : Fin 1))
            * (Host.gather (colGather 10000 640000 wfg)
      (fun n => Ideal.div 1 ((Ideal.hostScatterAdd (rowScatter 10000 640000 1 wf1) (fun _ => 0) (Read.val_main_v34 (F := Ideal) x6)
        (Cert.EdgeSpec.gate (Read.val_main_v10 (F := Ideal) x0 x6) (Read.val_main_v17 (F := Ideal) x0 x6) (Read.val_main_v30 (F := Ideal) x1 x6) x2 x3)) n) + (Ideal.ofBits .f32 0x24E69595#32))
      (Read.val_main_v45 (F := Ideal) x6)) (ix2 (j 0) (0 : Fin 1)))
            * (Cert.EdgeSpec.msg (Read.val_main_v10 (F := Ideal) x0 x6) (Read.val_main_v17 (F := Ideal) x0 x6) x4 x5) j) := by
  have h35 := rowsum_form x0 x1 x2 x3 x6
  -- their reciprocals plus the small constant
  have h39 : Read.val_main_v39 (F := Ideal) x0 x1 x2 x3 x6 = (fun n => Ideal.div 1 ((Ideal.hostScatterAdd (rowScatter 10000 640000 1 wf1) (fun _ => 0) (Read.val_main_v34 (F := Ideal) x6)
        (Cert.EdgeSpec.gate (Read.val_main_v10 (F := Ideal) x0 x6) (Read.val_main_v17 (F := Ideal) x0 x6) (Read.val_main_v30 (F := Ideal) x1 x6) x2 x3)) n) + (Ideal.ofBits .f32 0x24E69595#32)) := by
    funext n
    rw [Read.val_main_v39_apply, Read.val_main_v37_apply, h35, one_col, eps_col]
    rfl
  -- read back per edge
  have h46 : Read.val_main_v46 (F := Ideal) x0 x1 x2 x3 x6 = (Host.gather (colGather 10000 640000 wfg)
      (fun n => Ideal.div 1 ((Ideal.hostScatterAdd (rowScatter 10000 640000 1 wf1) (fun _ => 0) (Read.val_main_v34 (F := Ideal) x6)
        (Cert.EdgeSpec.gate (Read.val_main_v10 (F := Ideal) x0 x6) (Read.val_main_v17 (F := Ideal) x0 x6) (Read.val_main_v30 (F := Ideal) x1 x6) x2 x3)) n) + (Ideal.ofBits .f32 0x24E69595#32))
      (Read.val_main_v45 (F := Ideal) x6)) := by
    unfold Read.val_main_v46
    rw [h39]
    rfl
  -- the normalised gate, spread over the features
  have h52 : ∀ (e : Fin 640000) (d : Fin 128), Read.val_main_v52 (F := Ideal) x0 x1 x2 x3 x6 (ix2 e d)
      = (Cert.EdgeSpec.gate (Read.val_main_v10 (F := Ideal) x0 x6) (Read.val_main_v17 (F := Ideal) x0 x6) (Read.val_main_v30 (F := Ideal) x1 x6) x2 x3) (ix2 e (0 : Fin 1))
        * (Host.gather (colGather 10000 640000 wfg)
      (fun n => Ideal.div 1 ((Ideal.hostScatterAdd (rowScatter 10000 640000 1 wf1) (fun _ => 0) (Read.val_main_v34 (F := Ideal) x6)
        (Cert.EdgeSpec.gate (Read.val_main_v10 (F := Ideal) x0 x6) (Read.val_main_v17 (F := Ideal) x0 x6) (Read.val_main_v30 (F := Ideal) x1 x6) x2 x3)) n) + (Ideal.ofBits .f32 0x24E69595#32))
      (Read.val_main_v45 (F := Ideal) x6)) (ix2 e (0 : Fin 1)) := by
    intro e d
    have hj : Read.idx_main_v52 (ix2 e d) = ix2 e (0 : Fin 1) :=
      funext fun b => Fin.ext (by match b with | ⟨0, _⟩ => rfl | ⟨1, _⟩ => rfl)
    rw [Read.val_main_v52_apply, hj, Read.val_main_v47_apply, Cert.RefEdge.ref_gate, h46]
    rfl
  -- times the message, summed per node
  unfold Read.val_main_v56
  rw [zero_block]
  have h55 : Read.val_main_v55 (F := Ideal) x6 = Read.val_main_v34 (F := Ideal) x6 := rfl
  rw [h55]
  have h53 : Read.val_main_v53 (F := Ideal) x0 x1 x2 x3 x4 x5 x6
      = fun j => ((Cert.EdgeSpec.gate (Read.val_main_v10 (F := Ideal) x0 x6) (Read.val_main_v17 (F := Ideal) x0 x6) (Read.val_main_v30 (F := Ideal) x1 x6) x2 x3) (ix2 (j 0) (0 : Fin 1))
            * (Host.gather (colGather 10000 640000 wfg)
      (fun n => Ideal.div 1 ((Ideal.hostScatterAdd (rowScatter 10000 640000 1 wf1) (fun _ => 0) (Read.val_main_v34 (F := Ideal) x6)
        (Cert.EdgeSpec.gate (Read.val_main_v10 (F := Ideal) x0 x6) (Read.val_main_v17 (F := Ideal) x0 x6) (Read.val_main_v30 (F := Ideal) x1 x6) x2 x3)) n) + (Ideal.ofBits .f32 0x24E69595#32))
      (Read.val_main_v45 (F := Ideal) x6)) (ix2 (j 0) (0 : Fin 1)))
            * (Cert.EdgeSpec.msg (Read.val_main_v10 (F := Ideal) x0 x6) (Read.val_main_v17 (F := Ideal) x0 x6) x4 x5) j := by
    funext j
    obtain ⟨e, d, rfl⟩ : ∃ (e : Fin 640000) (d : Fin 128), j = ix2 e d := ⟨j 0, j 1, eq_ix2 j⟩
    rw [Read.val_main_v53_apply, h52 e d, Cert.RefEdge.ref_msg]
    rfl
  rw [h53]
  rfl

/-! ## The index normalisation -/

/-- On an edge whose target word is not negative the normalised word is the word itself. -/
theorem norm_eq (x6 : (⟨S2x640000, .i32⟩ : BufTy).Contents (Elt Ideal)) (e : Fin 640000)
    (h : 0 ≤ (Read.val_main_v34 (F := Ideal) x6 (ix2 e (0 : Fin 1))).toInt) :
    Read.val_main_v45 (F := Ideal) x6 (ix2 e (0 : Fin 1)) = Read.val_main_v34 (F := Ideal) x6 (ix2 e (0 : Fin 1)) := by
  have hi : Read.idx_main_v45 (ix2 e (0 : Fin 1)) = ix1 e :=
    funext fun b => Fin.ext (by match b with | ⟨0, _⟩ => rfl)
  have hi' : Read.idx_main_v34 (ix2 e (0 : Fin 1)) = ix1 e :=
    funext fun b => Fin.ext (by match b with | ⟨0, _⟩ => rfl)
  rw [Read.val_main_v34_apply, hi'] at h
  rw [Read.val_main_v45_apply, Read.val_main_v34_apply, hi, hi', Read.val_main_v44_apply, Read.val_main_v41_apply,
    Read.val_main_v40_apply, Read.val_main_c_7_apply]
  have hc : IntOp.cmpi .slt (Read.val_main_v1 (F := Ideal) x6 (ix1 e)) 0#32 = 0#1 :=
    eq_zero_of_ne_one fun h1 => by
      have h2 := IntOp.cmpi_slt.mp h1
      have h0 : (0#32 : BitVec 32).toInt = 0 := rfl
      omega
  rw [hc, select_zero]

end Cert.RefForm

end
-- ==== Proof.PreDecode.lean ====
/-
  What the precondition says of the inputs.

  The precondition is the conjunction of seven checks, each a conjunction over every entry of an array (a
  reduction by `and` from the word 1): for each of the six real-valued inputs, that the absolute value of every
  entry is below `+∞`; and that the row sum gathered at every edge's (normalised) row index is not zero.

  An extended real `a` with `max a (-a) < ⊤` is neither `⊤` nor `⊥` (for both, the maximum is `⊤`), so it is a real
  number.  A comparison word is 1 exactly when the compared relation holds.  The row sum and the row indices
  the last check gathers at are built from the inputs by the same operations, in the same order of composition,
  as the reference program builds them, so the two terms are the same term.
-/
import proofs.«129259_j53274774340079_2_alg».proof.Proof.Gen.Pre_finite_inputs
import proofs.«129259_j53274774340079_2_alg».proof.Proof.Gen.ReferenceIdeal.Read
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Pre_finite_inputs Cert.Pre_finite_inputs.Facts

/-- A one-bit word made from a truth value is 1 exactly when the value is true. -/
theorem ofBool_eq_one {b : Bool} : BitVec.ofBool b = 1#1 ↔ b = true := by cases b <;> decide

/-- The word `0x7F800000` (all-ones exponent, zero fraction, positive sign) is `+∞`. -/
theorem inf_bits : Ideal.ofBits .f32 0x7F800000#32 = (⊤ : EReal) := by simp [Ideal.ofBits, Ideal.ieee]

/-- An extended real whose absolute value is below `+∞` is a real number: at `⊥` and at `⊤` the absolute value
    `max a (-a)` is `⊤`. -/
theorem real_of_abs_lt_top (a : EReal)
    (h : Ideal.cmp .olt (max a (-a)) (Ideal.ofBits .f32 0x7F800000#32) = 1#1) : ∃ r : ℝ, a = (r : EReal) := by
  rw [inf_bits] at h
  have h' : max a (-a) < ⊤ := of_decide_eq_true (ofBool_eq_one.1 h)
  induction a using EReal.rec with
  | bot => simp at h'
  | coe r => exact ⟨r, rfl⟩
  | top => simp at h'

/-- An extended real that compares "not equal" to the word of zero is not zero. -/
theorem ne_zero_of_une (a : EReal) (h : Ideal.cmp .une a (Ideal.ofBits .f32 0x00000000#32) = 1#1) : a ≠ 0 := by
  rw [Ideal.ofBits_zero_f32] at h
  exact of_decide_eq_true (ofBool_eq_one.1 h)

/-- The index set of a rank-0 array has one element. -/
instance : Subsingleton S_.Idx := ⟨fun a b => funext fun d => d.elim0⟩

/-- One entry of a finiteness check: where `|x| < +∞` holds at `i`, the entry `x i` is a real number. -/
theorem real_of_check {s : Shape} (x : FVec Ideal s .f32) (hb : S_.BroadcastsInDim s (![] : Fin 0 → Fin s.rank))
    (i : s.Idx)
    (h : cmpf .olt (Host.absf x) (broadcastInDim s ![] hb (constant (F := Ideal) S_ .f32 0x7F800000#32)) i = 1#1) :
    ∃ r : ℝ, x i = (r : EReal) := by
  rw [cmpf_apply, broadcastInDim_apply _ hb _ i ix0 (fun a => a.elim0)] at h
  exact real_of_abs_lt_top (x i) h

variable {x0 : FVec Ideal S10000x128 .f32} {x1 : FVec Ideal S10000 .f32} {x2 : FVec Ideal S256x1 .f32}
  {x3 : FVec Ideal S1 .f32} {x4 : FVec Ideal S256x128 .f32} {x5 : FVec Ideal S128 .f32} {x6 : IVec S2x640000 32}

/-- The precondition, split into its seven checks, each read at every entry: the six finiteness checks as "every
    entry is a real number", the seventh as the comparison word at every edge. -/
theorem decode (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ ∀ e : Fin 640000,
        Host.gather Cert.ReferenceIdeal.gather_S10000x1_S640000x1_S640000x1_1_0_n_n_0_1_11
          (Cert.ReferenceIdeal.Read.val_main_v35 (F := Ideal) x0 x1 x2 x3 x6)
          (Cert.ReferenceIdeal.Read.val_main_v45 (F := Ideal) x6) (ix2 e (0 : Fin 1)) ≠ 0 := by
  have e := congrFun h ix0
  dsimp only [fn, fn_part1, fn_part2, fn_part3, fn_part4] at e
  obtain ⟨e, e74⟩ := IntOp.andi_eq_one.1 e
  obtain ⟨e, e63⟩ := IntOp.andi_eq_one.1 e
  obtain ⟨e, e58⟩ := IntOp.andi_eq_one.1 e
  obtain ⟨e, e53⟩ := IntOp.andi_eq_one.1 e
  obtain ⟨e, e48⟩ := IntOp.andi_eq_one.1 e
  obtain ⟨e39, e43⟩ := IntOp.andi_eq_one.1 e
  refine ⟨fun i => real_of_check x0 _ i (Host.reduce_andi_all _ _ _ _ _ e39 i),
    fun i => real_of_check x1 _ i (Host.reduce_andi_all _ _ _ _ _ e43 i),
    fun i => real_of_check x2 _ i (Host.reduce_andi_all _ _ _ _ _ e48 i),
    fun i => real_of_check x3 _ i (Host.reduce_andi_all _ _ _ _ _ e53 i),
    fun i => real_of_check x4 _ i (Host.reduce_andi_all _ _ _ _ _ e58 i),
    fun i => real_of_check x5 _ i (Host.reduce_andi_all _ _ _ _ _ e63 i), fun e => ?_⟩
  have c := Host.reduce_andi_all _ _ _ _ _ e74 (ix2 e (0 : Fin 1))
  rw [cmpf_apply, broadcastInDim_apply _ bcast_S_S640000x1 _ (ix2 e (0 : Fin 1)) ix0 (fun a => a.elim0)] at c
  exact ne_zero_of_une _ c

theorem finite_x0 (h : fn (F := Ideal) x0 x1 x2 x3 x4 x5 x6 = fun _ => 1#1) : ∀ i, ∃ r : ℝ, x0 i = (r : EReal) :=
  (decode h).1
theorem finite_x1 (h : fn (F := Ideal) x0 x1 x2 x3 x4 x5 x6 = fun _ => 1#1) : ∀ i, ∃ r : ℝ, x1 i = (r : EReal) :=
  (decode h).2.1
theorem finite_x2 (h : fn (F := Ideal) x0 x1 x2 x3 x4 x5 x6 = fun _ => 1#1) : ∀ i, ∃ r : ℝ, x2 i = (r : EReal) :=
  (decode h).2.2.1
theorem finite_x3 (h : fn (F := Ideal) x0 x1 x2 x3 x4 x5 x6 = fun _ => 1#1) : ∀ i, ∃ r : ℝ, x3 i = (r : EReal) :=
  (decode h).2.2.2.1
theorem finite_x4 (h : fn (F := Ideal) x0 x1 x2 x3 x4 x5 x6 = fun _ => 1#1) : ∀ i, ∃ r : ℝ, x4 i = (r : EReal) :=
  (decode h).2.2.2.2.1
theorem finite_x5 (h : fn (F := Ideal) x0 x1 x2 x3 x4 x5 x6 = fun _ => 1#1) : ∀ i, ∃ r : ℝ, x5 i = (r : EReal) :=
  (decode h).2.2.2.2.2.1

/-- The row sum the reference divides by, gathered at an edge's row index, is not zero. -/
theorem rowsum_ne (h : fn (F := Ideal) x0 x1 x2 x3 x4 x5 x6 = fun _ => 1#1) (e : Fin 640000) :
    Host.gather Cert.ReferenceIdeal.gather_S10000x1_S640000x1_S640000x1_1_0_n_n_0_1_11
      (Cert.ReferenceIdeal.Read.val_main_v35 (F := Ideal) x0 x1 x2 x3 x6)
      (Cert.ReferenceIdeal.Read.val_main_v45 (F := Ideal) x6) (ix2 e (0 : Fin 1)) ≠ 0 :=
  (decode h).2.2.2.2.2.2 e

end Cert.PreDecode

end
-- ==== Proof.EdgeReal.lean ====
/-
  The per-edge quantities of `Cert.EdgeSpec` are real numbers when their inputs are.

  A real number is an extended real of the form `(r : EReal)` with `r : ℝ`.  Sums, products and finite sums of
  real numbers are real (the coercion commutes with `+` and `*`), and the exponential of a real number is the
  real exponential.  The gate is a product of a weight with the exponential of two finite sums of products plus a
  bias; the message is two finite sums of products plus a bias: both are built from the inputs by these
  operations only.
-/
import proofs.«129259_j53274774340079_2_alg».proof.Proof.EdgeSpec

noncomputable section

open scoped BigOperators

namespace Cert.EdgeReal

open Idealize.ShloMosaic Idealize.ShloMosaic.ValueIdx

/-- An extended real that is (the coercion of) a real number. -/
abbrev IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is real: by induction on the index set, the empty sum being `0`. -/
theorem IsReal.sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact IsReal.add (h a (Finset.mem_insert_self a s)) (ih fun i hi => h i (Finset.mem_insert_of_mem hi))

/-- The exponential of a real number is the real exponential. -/
theorem IsReal.exp {x : EReal} (hx : IsReal x) : IsReal (Ideal.exp x) := by
  obtain ⟨a, rfl⟩ := hx
  exact ⟨Real.exp a, Ideal.exp_coe a⟩

variable {xr xc : (⟨2, ![640000, 128]⟩ : Shape).Idx → EReal} {w : (⟨2, ![640000, 1]⟩ : Shape).Idx → EReal}
  {Wg : (⟨2, ![256, 1]⟩ : Shape).Idx → EReal} {bg : (⟨1, ![1]⟩ : Shape).Idx → EReal}
  {Wm : (⟨2, ![256, 128]⟩ : Shape).Idx → EReal} {bm : (⟨1, ![128]⟩ : Shape).Idx → EReal}

/-- The gate logit of an edge is real when the gathered rows, the gate weights and the bias are. -/
theorem logit_real (hxr : ∀ i, ∃ r : ℝ, xr i = (r : EReal)) (hxc : ∀ i, ∃ r : ℝ, xc i = (r : EReal))
    (hWg : ∀ i, ∃ r : ℝ, Wg i = (r : EReal)) (hbg : ∀ i, ∃ r : ℝ, bg i = (r : EReal)) (e : Fin 640000) :
    ∃ r : ℝ, Cert.EdgeSpec.logit xr xc Wg bg e = (r : EReal) := by
  unfold Cert.EdgeSpec.logit
  exact IsReal.add
    (IsReal.add (IsReal.sum _ _ fun k _ => IsReal.mul (hxr _) (hWg _))
      (IsReal.sum _ _ fun k _ => IsReal.mul (hxc _) (hWg _)))
    (hbg _)

/-- The gate of every edge is real when every input is. -/
theorem gate_real (hxr : ∀ i, ∃ r : ℝ, xr i = (r : EReal)) (hxc : ∀ i, ∃ r : ℝ, xc i = (r : EReal))
    (hw : ∀ i, ∃ r : ℝ, w i = (r : EReal)) (hWg : ∀ i, ∃ r : ℝ, Wg i = (r : EReal))
    (hbg : ∀ i, ∃ r : ℝ, bg i = (r : EReal)) :
    ∀ i, ∃ r : ℝ, Cert.EdgeSpec.gate xr xc w Wg bg i = (r : EReal) := by
  intro i
  unfold Cert.EdgeSpec.gate
  exact IsReal.mul (hw i) (IsReal.exp (logit_real hxr hxc hWg hbg (i 0)))

/-- The message of every edge, at every feature, is real when every input is. -/
theorem msg_real (hxr : ∀ i, ∃ r : ℝ, xr i = (r : EReal)) (hxc : ∀ i, ∃ r : ℝ, xc i = (r : EReal))
    (hWm : ∀ i, ∃ r : ℝ, Wm i = (r : EReal)) (hbm : ∀ i, ∃ r : ℝ, bm i = (r : EReal)) :
    ∀ j, ∃ r : ℝ, Cert.EdgeSpec.msg xr xc Wm bm j = (r : EReal) := by
  intro j
  unfold Cert.EdgeSpec.msg
  exact IsReal.add
    (IsReal.add (IsReal.sum _ _ fun k _ => IsReal.mul (hxr _) (hWm _))
      (IsReal.sum _ _ fun k _ => IsReal.mul (hxc _) (hWm _)))
    (hbm _)

end Cert.EdgeReal

end
-- ==== Proof.PoolAlgebra.lean ====
/-
  The one algebraic law that joins the two programs.

  Fix a target node and a feature. Let `S` be the (edge, feature) update elements that land on it, `a' j` the gate
  weight of element `j`'s edge, `a k` the gate weight of edge `k`, `β j` the message entry, and `S₁` the edges landing on the node,
  so that `ρ = ∑_{k ∈ S₁} a k` is the node's normaliser and `c = 1/ρ + ε` its scale. One program scales every
  edge weight first and sums, `∑_{j ∈ S} (a' j · c) · β j`; the other sums first and scales once, by `c` — or by `0`
  when `ρ = 0`. When no element lands on the node both are `0`. Otherwise `ρ ≠ 0` is given, every `a`, `β` and `ε`
  is a real number, so `ρ`, `c` are real and multiplication by the real `c` distributes over the finite real sum.
  (On the extended reals the law fails at infinite `c`: this is where finiteness is used.)
-/
import Idealize.ShloMosaic.PureOps.Ideal

noncomputable section

open scoped BigOperators

namespace Cert.PoolAlgebra

open Idealize.ShloMosaic

/-- A finite sum of real numbers, summed in the extended reals, is the real sum. -/
theorem coe_sum {ι : Type*} (S : Finset ι) (f : ι → ℝ) :
    (∑ j ∈ S, ((f j : ℝ) : EReal)) = ((∑ j ∈ S, f j : ℝ) : EReal) := by
  classical
  refine Finset.induction_on S ?_ ?_
  · simp
  · intro j T hj ih
    rw [Finset.sum_insert hj, Finset.sum_insert hj, ih, EReal.coe_add]

/-- Scaling each weight and summing equals summing and scaling once (or by zero when nothing lands). -/
theorem pool_eq {ι κ : Type*} (S : Finset ι) (S₁ : Finset κ) (a' g β : ι → EReal) (a : κ → EReal) (ε : EReal)
    (ha' : ∀ j, ∃ r : ℝ, a' j = (r : EReal)) (ha : ∀ k, ∃ r : ℝ, a k = (r : EReal))
    (hβ : ∀ j, ∃ r : ℝ, β j = (r : EReal)) (hε : ∃ r : ℝ, ε = (r : EReal))
    (hne : S.Nonempty → (0 + ∑ k ∈ S₁, a k) ≠ 0)
    (hg : ∀ j ∈ S, g j = Ideal.div 1 (0 + ∑ k ∈ S₁, a k) + ε) :
    0 + ∑ j ∈ S, (a' j * g j) * β j
      = (0 + ∑ j ∈ S, a' j * β j)
          * (if (0 + ∑ k ∈ S₁, a k) = 0 then 0 else Ideal.div 1 (0 + ∑ k ∈ S₁, a k) + ε) := by
  classical
  choose ar' har' using ha'
  choose ar har using ha
  choose br hbr using hβ
  obtain ⟨er, rfl⟩ := hε
  have hrs : (0 + ∑ k ∈ S₁, a k) = ((∑ k ∈ S₁, ar k : ℝ) : EReal) := by
    rw [zero_add, ← coe_sum]
    exact Finset.sum_congr rfl (fun k _ => har k)
  rcases S.eq_empty_or_nonempty with rfl | hS
  · simp
  · have hr := hne hS
    rw [hrs] at hr hg ⊢
    have hr' : (∑ k ∈ S₁, ar k) ≠ 0 := fun h => hr (by rw [h]; rfl)
    rw [if_neg hr]
    have hc : Ideal.div 1 ((∑ k ∈ S₁, ar k : ℝ) : EReal) + (er : EReal)
        = ((1 / (∑ k ∈ S₁, ar k) + er : ℝ) : EReal) := by
      rw [Ideal.div_coe hr' 1, one_mul, EReal.coe_add]
    rw [hc] at hg ⊢
    have hL : ∑ j ∈ S, (a' j * g j) * β j
        = ((∑ j ∈ S, (ar' j * (1 / (∑ k ∈ S₁, ar k) + er)) * br j : ℝ) : EReal) := by
      rw [← coe_sum]
      refine Finset.sum_congr rfl (fun j hj => ?_)
      rw [hg j hj, har' j, hbr j, ← EReal.coe_mul, ← EReal.coe_mul]
    have hR : ∑ j ∈ S, a' j * β j = ((∑ j ∈ S, ar' j * br j : ℝ) : EReal) := by
      rw [← coe_sum]
      refine Finset.sum_congr rfl (fun j _ => ?_)
      rw [har' j, hbr j, ← EReal.coe_mul]
    rw [hL, hR, zero_add, zero_add, ← EReal.coe_mul]
    congr 1
    rw [Finset.sum_mul]
    refine Finset.sum_congr rfl (fun j _ => ?_)
    ring

end Cert.PoolAlgebra

end
-- ==== Proof.PoolBridge.lean ====
/-
  The two programs' last stage, as one identity between array expressions on the extended reals.

  Edges carry a gate weight `a e` (a column over the edges) and messages `β (e, d)`; `I` holds each edge's target
  node as a signed word, and `J` the same word normalised for a gather (a negative word shifted up by the node
  count): `J` and `I` agree on every edge whose word is not negative. Scattering with addition at `I` drops an edge
  whose word is outside the node axis.
  One program normalises the weights first: per node `ρ n = ∑_{e → n} a e`, `c n = 1/ρ n + ε`, and the result is
  `∑_{e → n} (a e · c (J e)) · β (e, d)`, reading `c` through a gather at `J`. The other sums `a e · β (e, d)` first and
  scales node `n`'s row by `c n`, or by `0` when `ρ n = 0`.
  An edge that lands on node `n` has word `n`, not negative and inside the axis, so its gather reads node `n` itself.
  Hence every term of node `n`'s sum carries the same factor `c n`. The hypothesis that the gathered `ρ` is nonzero
  on every edge gives `ρ n ≠ 0` as soon as one edge lands on `n`; with all of `a`, `β`, `ε` real the factor is a real
  number and comes out of the sum.
-/
import Idealize.ShloMosaic.PureOps.Ideal
import Idealize.ShloMosaic.Lib.ValueIdx
import proofs.«129259_j53274774340079_2_alg».proof.Proof.IndexLaws
import proofs.«129259_j53274774340079_2_alg».proof.Proof.PoolAlgebra

noncomputable section

open scoped BigOperators

namespace Cert.PoolBridge

open Idealize.ShloMosaic Idealize.ShloMosaic.ValueIdx Cert.IndexLaws

/-- The node a gather reads for an edge whose word is node `n`: `n` itself. -/
theorem gathered_node (I J : IVec ⟨2, ![640000, 1]⟩ 32) (e : Fin 640000) (n : Fin 10000)
    (hI : (I (ix2 e (0 : Fin 1))).toInt = (n.val : Int)) (hJ : J (ix2 e (0 : Fin 1)) = I (ix2 e (0 : Fin 1)))
    (h : min (J (ix2 e (0 : Fin 1))).toInt.toNat (10000 - 1) < 10000) :
    (ix2 (⟨min (J (ix2 e (0 : Fin 1))).toInt.toNat (10000 - 1), h⟩ : Fin 10000) (0 : Fin 1)
      : (⟨2, ![10000, 1]⟩ : Shape).Idx) = ix2 n (0 : Fin 1) := by
  have hn := n.isLt
  have : min (J (ix2 e (0 : Fin 1))).toInt.toNat (10000 - 1) = n.val := by
    rw [hJ, hI]; omega
  congr 1
  exact Fin.ext this

theorem pooled_eq
    (wf1 : ScatterDims.WF ⟨2, ![10000, 1]⟩ ⟨2, ![640000, 1]⟩ ⟨2, ![640000, 1]⟩ [1] [0] [0] 1)
    (wf128 : ScatterDims.WF ⟨2, ![10000, 128]⟩ ⟨2, ![640000, 1]⟩ ⟨2, ![640000, 128]⟩ [1] [0] [0] 1)
    (wfg : GatherDims.WF ⟨2, ![10000, 1]⟩ ⟨2, ![640000, 1]⟩ ⟨2, ![640000, 1]⟩ [1] [0] [] [0] [] 1 ![1, 1])
    (I J : IVec ⟨2, ![640000, 1]⟩ 32) (a : (⟨2, ![640000, 1]⟩ : Shape).Idx → EReal)
    (β : (⟨2, ![640000, 128]⟩ : Shape).Idx → EReal) (ε : EReal)
    (ha : ∀ k, ∃ r : ℝ, a k = (r : EReal)) (hβ : ∀ j, ∃ r : ℝ, β j = (r : EReal)) (hε : ∃ r : ℝ, ε = (r : EReal))
    (hJ : ∀ e : Fin 640000, 0 ≤ (I (ix2 e (0 : Fin 1))).toInt → J (ix2 e (0 : Fin 1)) = I (ix2 e (0 : Fin 1)))
    (hpre : ∀ e : Fin 640000, Host.gather (colGather 10000 640000 wfg)
      (Ideal.hostScatterAdd (rowScatter 10000 640000 1 wf1) (fun _ => 0) I a) J (ix2 e (0 : Fin 1)) ≠ 0)
    (i : (⟨2, ![10000, 128]⟩ : Shape).Idx) :
    Ideal.hostScatterAdd (rowScatter 10000 640000 128 wf128) (fun _ => 0) I
        (fun j => (a (ix2 (j 0) (0 : Fin 1)) * Host.gather (colGather 10000 640000 wfg)
          (fun n => Ideal.div 1 (Ideal.hostScatterAdd (rowScatter 10000 640000 1 wf1) (fun _ => 0) I a n) + ε) J
            (ix2 (j 0) (0 : Fin 1))) * β j) i
      = Ideal.hostScatterAdd (rowScatter 10000 640000 128 wf128) (fun _ => 0) I
          (fun j => a (ix2 (j 0) (0 : Fin 1)) * β j) i
        * (if Ideal.hostScatterAdd (rowScatter 10000 640000 1 wf1) (fun _ => 0) I a (ix2 (i 0) (0 : Fin 1)) = 0 then 0
            else Ideal.div 1 (Ideal.hostScatterAdd (rowScatter 10000 640000 1 wf1) (fun _ => 0) I a
              (ix2 (i 0) (0 : Fin 1))) + ε) := by
  -- an edge element landing on `i` reads, through the gather, node `i 0`
  have hnode : ∀ j : (⟨2, ![640000, 128]⟩ : Shape).Idx,
      (rowScatter 10000 640000 128 wf128).resultIdx? j I = some i →
      ∀ f : (⟨2, ![10000, 1]⟩ : Shape).Idx → EReal,
        Host.gather (colGather 10000 640000 wfg) f J (ix2 (j 0) (0 : Fin 1)) = f (ix2 (i 0) (0 : Fin 1)) := by
    intro j hj f
    have hI := rowScatter_lands wf128 I j i hj
    rw [colGather_apply (by omega) wfg f J (j 0)]
    congr 1
    exact gathered_node I J (j 0) (i 0) hI (hJ (j 0) (by rw [hI]; exact Int.natCast_nonneg _)) _
  have ha' : ∀ j : (⟨2, ![640000, 128]⟩ : Shape).Idx, ∃ r : ℝ, a (ix2 (j 0) (0 : Fin 1)) = (r : EReal) :=
    fun j => ha _
  unfold Ideal.hostScatterAdd
  beta_reduce
  refine Cert.PoolAlgebra.pool_eq _ _ _ _ β a ε ha' ha hβ hε ?_ ?_
  · rintro ⟨j, hj⟩
    have hj' := (Finset.mem_filter.mp hj).2
    have h := hpre (j 0)
    rw [hnode j hj'] at h
    exact h
  · intro j hj
    have hj' := (Finset.mem_filter.mp hj).2
    exact hnode j hj' _

end Cert.PoolBridge

end
-- ==== Proof.Pooled.lean ====
/-
  The two results are one array.

  The kernel's result is the last stage over the arrays the region leaves — the gate column and the gate-times-message
  rows, both functions of the gathered rows; the reference's result is the same last stage with every edge weight
  normalised first. The gathered rows, the per-edge weight and the target-node words are the same terms of the
  arguments in both programs. Under the precondition every float argument is real, so every gate weight and message
  entry is real, and the normaliser of a node that an edge reaches is nonzero: the bridging identity applies at every
  index of the result.
-/
import proofs.«129259_j53274774340079_2_alg».proof.Proof.KerForm
import proofs.«129259_j53274774340079_2_alg».proof.Proof.KerArrays
import proofs.«129259_j53274774340079_2_alg».proof.Proof.KerArgs
import proofs.«129259_j53274774340079_2_alg».proof.Proof.RefForm
import proofs.«129259_j53274774340079_2_alg».proof.Proof.PreDecode
import proofs.«129259_j53274774340079_2_alg».proof.Proof.EdgeReal
import proofs.«129259_j53274774340079_2_alg».proof.Proof.Consts
import proofs.«129259_j53274774340079_2_alg».proof.Proof.PoolBridge

set_option maxRecDepth 16384

noncomputable section

namespace Cert.Pooled

open Idealize.ShloMosaic Idealize.ShloMosaic.TcCoe Idealize.SL.Sem Idealize.ShloMosaic.ValueIdx
open Cert.IndexLaws

/-- A gathered array's entries are entries of its operand. -/
theorem gather_real {α : Type} {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx _

set_option maxHeartbeats 4000000 in
theorem value_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = fun _ => 1#1)
    (i : Cert.ReferenceIdeal.S10000x128.Idx) :
    Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) i
    = Pipeline.afterTail₀ Cert.KernelIdeal.cfgs (Cert.KernelIdeal.Gen.dats (F := Ideal) m) 0 (Cert.KernelIdeal.Gen.V0 m)
        [Cert.KernelIdeal.Gen.hostOps1, Cert.KernelIdeal.Gen.hostOps1_1, Cert.KernelIdeal.Gen.hostOps1_2] c
        Cert.KernelIdeal.main_v49 i := by
  -- the arguments are real
  have h0 := Cert.PreDecode.finite_x0 hpre
  have h1 := Cert.PreDecode.finite_x1 hpre
  have h2 := Cert.PreDecode.finite_x2 hpre
  have h3 := Cert.PreDecode.finite_x3 hpre
  have h4 := Cert.PreDecode.finite_x4 hpre
  have h5 := Cert.PreDecode.finite_x5 hpre
  -- the kernel's side, over the reference's own terms of the arguments
  rw [Cert.KerForm.ker_form m c i, Cert.KerArrays.final9 m c, Cert.KerArrays.final10 m c]
  rw [Cert.KerArgs.V_xr m c, Cert.KerArgs.V_xc m c, Cert.KerArgs.V_w m c]
  rw [show Cert.KerForm.rowWords m c = _ from Cert.KerArgs.rowWords_eq m c]
  -- the reference's side
  rw [congrFun (Cert.RefForm.ref_form _ _ _ _ _ _ _) i]
  refine Cert.PoolBridge.pooled_eq Cert.RefForm.wf1 Cert.RefForm.wf128 Cert.RefForm.wfg _ _ _ _ _ ?_ ?_ Cert.Consts.eps_real ?_ ?_ i
  · exact Cert.EdgeReal.gate_real (fun j => h0 _) (fun j => h0 _) (fun j => h1 _) h2 h3
  · exact Cert.EdgeReal.msg_real (fun j => h0 _) (fun j => h0 _) h4 h5
  · exact fun e he => Cert.RefForm.norm_eq _ e he
  · intro e
    have hne := Cert.PreDecode.rowsum_ne hpre e
    rw [Cert.RefForm.gather_rec_eq, Cert.RefForm.rowsum_form] at hne
    exact hne

end Cert.Pooled

end
-- ==== Proof.lean ====
/-
  Kernel against reference for a weighted attention pooling over a graph: both frames, the (empty) idealization
  ledger, and the equality of the two results on the extended reals.

  Per edge `e` from `col e` to `row e`: a gate weight `a e = pos[col e] · exp(logit e)` and a message `β e`. The
  reference normalises each weight by its target node's total, `a e · (1/ρ(row e) + ε)`, and sums the weighted messages
  per node; the kernel emits `a` and `a · β` from one fused pass over blocks of 4000 edges, sums per node, and scales
  each node's row once (by zero where `ρ = 0`). The frames are the generated ones; the reference's run and its stages
  read at an index are generated; written here are the specification of the two per-edge quantities, the kernel's
  blocks and arrays against it, the reference's stages against it, what the precondition says, and the one law that
  joins the two orders of scaling — valid because, under the precondition, all quantities are real and the total of
  a node that some edge reaches is nonzero.
-/
import proofs.«129259_j53274774340079_2_alg».proof.Defs
import proofs.«129259_j53274774340079_2_alg».proof.Proof.Gen.Kernel
import proofs.«129259_j53274774340079_2_alg».proof.Proof.Gen.Kernel.Skeleton
import proofs.«129259_j53274774340079_2_alg».proof.Proof.Gen.Kernel.Launch
import proofs.«129259_j53274774340079_2_alg».proof.Proof.Gen.Kernel.Points
import proofs.«129259_j53274774340079_2_alg».proof.Proof.Gen.Kernel.Frame
import proofs.«129259_j53274774340079_2_alg».proof.Proof.Gen.KernelIdeal
import proofs.«129259_j53274774340079_2_alg».proof.Proof.Gen.KernelIdeal.Skeleton
import proofs.«129259_j53274774340079_2_alg».proof.Proof.Gen.KernelIdeal.Launch
import proofs.«129259_j53274774340079_2_alg».proof.Proof.Gen.KernelIdeal.Points
import proofs.«129259_j53274774340079_2_alg».proof.Proof.Gen.KernelIdeal.Frame
import proofs.«129259_j53274774340079_2_alg».proof.Proof.Gen.ReferenceIdeal
import proofs.«129259_j53274774340079_2_alg».proof.Proof.Gen.Pre_finite_inputs
import proofs.«129259_j53274774340079_2_alg».proof.Proof.Gen.ReferenceIdeal.Run
import proofs.«129259_j53274774340079_2_alg».proof.Proof.Gen.ReferenceIdeal.Read
import proofs.«129259_j53274774340079_2_alg».proof.Proof.Pooled
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote nothing. -/
theorem preserves : Cert.preserves_Kernel_KernelIdeal := trivial

/-- The idealized kernel's run with its result named: what the host lines after the region leave in the result buffer,
    the argument arrays unchanged. -/
theorem ker_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v49) = Pipeline.afterTail₀ Cert.KernelIdeal.cfgs (Cert.KernelIdeal.Gen.dats (F := Ideal) m) 0
            (Cert.KernelIdeal.Gen.V0 m) [Cert.KernelIdeal.Gen.hostOps1, Cert.KernelIdeal.Gen.hostOps1_1, Cert.KernelIdeal.Gen.hostOps1_2] c Cert.KernelIdeal.main_v49
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun _ h c =>
    ⟨(h c).2 Cert.KernelIdeal.main_v49 (Pipeline.mem_restRefs_of Cert.KernelIdeal.main_v49 (by decide) (by decide)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).2 Cert.KernelIdeal.main_arg6 (Pipeline.mem_restRefs_of Cert.KernelIdeal.main_arg6 (by decide) (by decide))).trans (Cert.KernelIdeal.Gen.W_main_arg6 m (Cert.KernelIdeal.Gen.dats m) c)⟩)
    (Cert.KernelIdeal.Gen.run_main m ρ)

/-- From memories agreeing on the arguments, the two idealized programs end with one result array. -/
theorem algebraic : Cert.algebraic_KernelIdeal_ReferenceIdeal := by
  intro m ρ m' ρ' hpre hagree
  refine ⟨fun c => Pipeline.afterTail₀ Cert.KernelIdeal.cfgs (Cert.KernelIdeal.Gen.dats (F := Ideal) m) 0
      (Cert.KernelIdeal.Gen.V0 m) [Cert.KernelIdeal.Gen.hostOps1, Cert.KernelIdeal.Gen.hostOps1_1, Cert.KernelIdeal.Gen.hostOps1_2] c Cert.KernelIdeal.main_v49,
    ker_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2.1, (hagree c).2.2.2.2.2.1, (hagree c).2.2.2.2.2.2]
  funext i
  exact Cert.Pooled.value_eq m c (hpre c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
